-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x2048x64 : Shape := ⟨4, ![4, 12, 2048, 64]⟩
abbrev S4x256 : Shape := ⟨2, ![4, 256]⟩
abbrev S4x2048 : Shape := ⟨2, ![4, 2048]⟩
abbrev S256x768 : Shape := ⟨2, ![256, 768]⟩
abbrev S768 : Shape := ⟨1, ![768]⟩
abbrev S_ : Shape := ⟨0, ![]⟩

class Facts : Prop where
  bcast_S_S4x12x2048x64 : S_.BroadcastsInDim S4x12x2048x64 (![] : Fin 0 → Fin S4x12x2048x64.rank)
  reducesTo_S4x12x2048x64_S_d0_1_2_3 : S4x12x2048x64.ReducesTo [0, 1, 2, 3] S_
  h_S_ : 0 < S_.numel
  bcast_S_S4x256 : S_.BroadcastsInDim S4x256 (![] : Fin 0 → Fin S4x256.rank)
  reducesTo_S4x256_S_d0_1 : S4x256.ReducesTo [0, 1] S_
  bcast_S_S4x2048 : S_.BroadcastsInDim S4x2048 (![] : Fin 0 → Fin S4x2048.rank)
  reducesTo_S4x2048_S_d0_1 : S4x2048.ReducesTo [0, 1] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S256x768 .f32) (main_arg8 : FVec F S768 .f32) (main_v33 : IVec S_ 1) : IVec S_ 1 :=
  let main_v34 : FVec F S256x768 .f32 := Host.absf main_arg7
  let main_cst_12 : FVec F S_ .f32 := constant S_ .f32 0x7F800000#32
  let main_v35 : FVec F S256x768 .f32 := broadcastInDim S256x768 ![] bcast_S_S256x768 main_cst_12
  let main_v36 : IVec S256x768 1 := cmpf .olt main_v34 main_v35
  let main_c_13 : IVec S_ 1 := constantI S_ 1 1#1
  let main_v37 : IVec S_ 1 := (fun x v => Host.reduce IntOp.andi x v reducesTo_S256x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S4x2048 .f32) (main_arg5 : FVec F S256x768 .f32) (main_arg6 : FVec F S768 .f32) (main_arg7 : FVec F S256x768 .f32) (main_arg8 : FVec F S768 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S4x2048 .f32 := Host.absf main_arg4
  let main_cst_6 : FVec F S_ .f32 := constant S_ .f32 0x7F800000#32
  let main_v20 : FVec F S4x2048 .f32 := broadcastInDim S4x2048 ![] bcast_S_S4x2048 main_cst_6
  let main_v21 : IVec S4x2048 1 := cmpf .olt main_v19 main_v20
  let main_c_7 : IVec S_ 1 := constantI S_ 1 1#1
  let main_v22 : IVec S_ 1 := (fun x v => Host.reduce IntOp.andi x v reducesTo_S4x2048_S_d0_1 h_S_) main_v21 main_c_7
  let main_v23 : IVec S_ 1 := andi main_v18 main_v22
  let main_v24 : FVec F S256x768 .f32 := Host.absf main_arg5
  let main_cst_8 : FVec F S_ .f32 := constant S_ .f32 0x7F800000#32
  let main_v25 : FVec F S256x768 .f32 := broadcastInDim S256x768 ![] bcast_S_S256x768 main_cst_8
  let main_v26 : IVec S256x768 1 := cmpf .olt main_v24 main_v25
  let main_c_9 : IVec S_ 1 := constantI S_ 1 1#1
  let main_v27 : IVec S_ 1 := (fun x v => Host.reduce IntOp.andi x v reducesTo_S256x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S4x12x2048x64 .f32) (main_arg1 : FVec F S4x12x2048x64 .f32) (main_arg2 : FVec F S4x12x2048x64 .f32) (main_arg3 : FVec F S4x256 .f32) (main_arg4 : FVec F S4x2048 .f32) (main_arg5 : FVec F S256x768 .f32) (main_arg6 : FVec F S768 .f32) (main_arg7 : FVec F S256x768 .f32) (main_arg8 : FVec F S768 .f32) : IVec S_ 1 :=
  let main_v0 : FVec F S4x12x2048x64 .f32 := Host.absf main_arg0
  let main_cst : FVec F S_ .f32 := constant S_ .f32 0x7F800000#32
  let main_v1 : FVec F S4x12x2048x64 .f32 := broadcastInDim S4x12x2048x64 ![] bcast_S_S4x12x2048x64 main_cst
  let main_v2 : IVec S4x12x2048x64 1 := cmpf .olt main_v0 main_v1
  let main_c : IVec S_ 1 := constantI S_ 1 1#1
  let main_v3 : IVec S_ 1 := (fun x v => Host.reduce IntOp.andi x v reducesTo_S4x12x2048x64_S_d0_1_2_3 h_S_) main_v2 main_c
  let main_v4 : FVec F S4x12x2048x64 .f32 := Host.absf main_arg1
  let main_cst_0 : FVec F S_ .f32 := constant S_ .f32 0x7F800000#32
  let main_v5 : FVec F S4x12x2048x64 .f32 := broadcastInDim S4x12x2048x64 ![] bcast_S_S4x12x2048x64 main_cst_0
  let main_v6 : IVec S4x12x2048x64 1 := cmpf .olt main_v4 main_v5
  let main_c_1 : IVec S_ 1 := constantI S_ 1 1#1
  let main_v7 : IVec S_ 1 := (fun x v => Host.reduce IntOp.andi x v reducesTo_S4x12x2048x64_S_d0_1_2_3 h_S_) main_v6 main_c_1
  let main_v8 : IVec S_ 1 := andi main_v3 main_v7
  let main_v9 : FVec F S4x12x2048x64 .f32 := Host.absf main_arg2
  let main_cst_2 : FVec F S_ .f32 := constant S_ .f32 0x7F800000#32
  let main_v10 : FVec F S4x12x2048x64 .f32 := broadcastInDim S4x12x2048x64 ![] bcast_S_S4x12x2048x64 main_cst_2
  let main_v11 : IVec S4x12x2048x64 1 := cmpf .olt main_v9 main_v10
  let main_c_3 : IVec S_ 1 := constantI S_ 1 1#1
  let main_v12 : IVec S_ 1 := (fun x v => Host.reduce IntOp.andi x v reducesTo_S4x12x2048x64_S_d0_1_2_3 h_S_) main_v11 main_c_3
  let main_v13 : IVec S_ 1 := andi main_v8 main_v12
  let main_v14 : FVec F S4x256 .f32 := Host.absf main_arg3
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg4 main_arg5 main_arg6 main_arg7 main_arg8 main_v13 main_v16
-- ==== Kernel.lean ====
abbrev S4x12x2048x64 : Shape := ⟨4, ![4, 12, 2048, 64]⟩
abbrev S4x256 : Shape := ⟨2, ![4, 256]⟩
abbrev S4x2048 : Shape := ⟨2, ![4, 2048]⟩
abbrev S256x768 : Shape := ⟨2, ![256, 768]⟩
abbrev S768 : Shape := ⟨1, ![768]⟩
abbrev S4x768 : Shape := ⟨2, ![4, 768]⟩
abbrev S1x768 : Shape := ⟨2, ![1, 768]⟩
abbrev S4x1x12x64 : Shape := ⟨4, ![4, 1, 12, 64]⟩
abbrev S4x12x1x64 : Shape := ⟨4, ![4, 12, 1, 64]⟩
abbrev S4x1x2048 : Shape := ⟨3, ![4, 1, 2048]⟩
abbrev S4x12x2048x2049 : Shape := ⟨4, ![4, 12, 2048, 2049]⟩
abbrev S1x1x512x64 : Shape := ⟨4, ![1, 1, 512, 64]⟩
abbrev S1x1x2048x64 : Shape := ⟨4, ![1, 1, 2048, 64]⟩
abbrev S1x1x1x64 : Shape := ⟨4, ![1, 1, 1, 64]⟩
abbrev S1x1x2048 : Shape := ⟨3, ![1, 1, 2048]⟩
abbrev S1x1x512x2049 : Shape := ⟨4, ![1, 1, 512, 2049]⟩
abbrev S512x64 : Shape := ⟨2, ![512, 64]⟩
abbrev S2048x64 : Shape := ⟨2, ![2048, 64]⟩
abbrev S1x64 : Shape := ⟨2, ![1, 64]⟩
abbrev S2048 : Shape := ⟨1, ![2048]⟩
abbrev S64x2048 : Shape := ⟨2, ![64, 2048]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S512x2049 : Shape := ⟨2, ![512, 2049]⟩

abbrev nBuf : Space → Nat
  | .hbm => 27
  | .vmem => 16
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x256, .f32⟩
  | .hbm, ⟨4, _⟩ => ⟨S4x2048, .f32⟩
  | .hbm, ⟨5, _⟩ => ⟨S256x768, .f32⟩
  | .hbm, ⟨6, _⟩ => ⟨S768, .f32⟩
  | .hbm, ⟨7, _⟩ => ⟨S256x768, .f32⟩
  | .hbm, ⟨8, _⟩ => ⟨S768, .f32⟩
  | .hbm, ⟨9, _⟩ => ⟨S4x768, .f32⟩
  | .hbm, ⟨10, _⟩ => ⟨S1x768, .f32⟩
  | .hbm, ⟨11, _⟩ => ⟨S4x768, .f32⟩
  | .hbm, ⟨12, _⟩ => ⟨S4x768, .f32⟩
  | .hbm, ⟨13, _⟩ => ⟨S4x1x12x64, .f32⟩
  | .hbm, ⟨14, _⟩ => ⟨S4x12x1x64, .f32⟩
  | .hbm, ⟨15, _⟩ => ⟨S4x768, .f32⟩
  | .hbm, ⟨16, _⟩ => ⟨S1x768, .f32⟩
  | .hbm, ⟨17, _⟩ => ⟨S4x768, .f32⟩
  | .hbm, ⟨18, _⟩ => ⟨S4x768, .f32⟩
  | .hbm, ⟨19, _⟩ => ⟨S4x1x12x64, .f32⟩
  | .hbm, ⟨20, _⟩ => ⟨S4x12x1x64, .f32⟩
  | .hbm, ⟨21, _⟩ => ⟨S4x1x2048, .f32⟩
  | .hbm, ⟨22, _⟩ => ⟨S4x12x2048x64, .bf16⟩
  | .hbm, ⟨23, _⟩ => ⟨S4x12x2048x64, .bf16⟩
  | .hbm, ⟨24, _⟩ => ⟨S4x12x2048x64, .bf16⟩
  | .hbm, ⟨25, _⟩ => ⟨S4x12x2048x64, .f32⟩
  | .hbm, ⟨26, _⟩ => ⟨S4x12x2048x2049, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x1x64, .f32⟩
  | .local _ .vmem, ⟨7, _⟩ => ⟨S1x1x1x64, .f32⟩
  | .local _ .vmem, ⟨8, _⟩ => ⟨S1x1x1x64, .f32⟩
  | .local _ .vmem, ⟨9, _⟩ => ⟨S1x1x1x64, .f32⟩
  | .local _ .vmem, ⟨10, _⟩ => ⟨S1x1x2048, .f32⟩
  | .local _ .vmem, ⟨11, _⟩ => ⟨S1x1x2048, .f32⟩
  | .local _ .vmem, ⟨12, _⟩ => ⟨S1x1x512x64, .f32⟩
  | .local _ .vmem, ⟨13, _⟩ => ⟨S1x1x512x64, .f32⟩
  | .local _ .vmem, ⟨14, _⟩ => ⟨S1x1x512x2049, .f32⟩
  | .local _ .vmem, ⟨15, _⟩ => ⟨S1x1x512x2049, .f32⟩
  | _, _ => ⟨S4x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 12, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x2049 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  bcast_S768_S1x768_1 : S768.BroadcastsInDim S1x768 (![1] : Fin 1 → Fin S1x768.rank)
  bcast_S1x768_S4x768_0_1 : S1x768.BroadcastsInDim S4x768 (![0, 1] : Fin 2 → Fin S4x768.rank)
  shapeCasts_S4x768_S4x1x12x64 : S4x768.ShapeCasts S4x1x12x64
  transposes_S4x1x12x64_S4x12x1x64_0_2_1_3 : S4x1x12x64.Transposes [0, 2, 1, 3] S4x12x1x64
  shapeCasts_S4x2048_S4x1x2048 : S4x2048.ShapeCasts S4x1x2048
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x1x64_S1x1x1x64_0_0_0_0 : ∀ a, (![0, 0, 0, 0] : Fin 4 → Nat) a + S1x1x1x64.size a ≤ S1x1x1x64.size a
  h_S1x1x1x64 : 0 < S1x1x1x64.numel
  shapeCasts_S1x1x1x64_S1x64 : S1x1x1x64.ShapeCasts S1x64
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  transposes_S2048x64_p1_0_S64x2048 : S2048x64.Transposes [1, 0] S64x2048
  shapeCasts_S2048_S1x2048 : S2048.ShapeCasts S1x2048
  broadcasts_S1x2048_S512x2048 : S1x2048.Broadcasts S512x2048
  broadcasts_S1x64_S512x64 : S1x64.Broadcasts S512x64
  reduces_S512x64_S512 : S512x64.Reduces [1] S512
  shapeCasts_S512_S512x1 : S512.ShapeCasts S512x1
  reduces_S512x2048_S512 : S512x2048.Reduces [1] S512
  broadcasts_S512x1_S512x2048 : S512x1.Broadcasts S512x2048
  concatenates_S512x1_S512x2048_S512x2049_d1 : Shape.Concatenates [S512x1, S512x2048] S512x2049 1
  inb_S1x1x512x2049_S1x1x512x2049_0_0_0_0 : ∀ a, (![0, 0, 0, 0] : Fin 4 → Nat) a + S1x1x512x2049.size a ≤ S1x1x512x2049.size a
  h_S1x1x512x2049 : 0 < S1x1x512x2049.numel
  shapeCasts_S1x1x512x2049_S512x2049 : S1x1x512x2049.ShapeCasts S512x2049
  shapeCasts_S512x2049_S1x1x512x2049 : S512x2049.ShapeCasts S1x1x512x2049
  broadcasts_S512x1_S512x64 : S512x1.Broadcasts S512x64
  shapeCasts_S512x64_S1x1x512x64 : S512x64.ShapeCasts S1x1x512x64
  dot_S4x256_S256x768_S4x768_1_0_0_1_n_n_wf : DotDims.WF S4x256 S256x768 S4x768 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x12x2048x64.size a
  hwx0_0 : ∀ i : grid0.Coords, EltTy.bits .bf16 = 32 ∨ (Rect.block (s := S4x12x2048x64) S1x1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x12x2048x64.size a
  hwx0_1 : ∀ i : grid0.Coords, EltTy.bits .bf16 = 32 ∨ (Rect.block (s := S4x12x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x12x2048x64.size a
  hwx0_2 : ∀ i : grid0.Coords, EltTy.bits .bf16 = 32 ∨ (Rect.block (s := S4x12x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x64.size a ≤ S4x12x1x64.size a
  hwx0_3 : ∀ i : grid0.Coords, EltTy.bits .f32 = 32 ∨ (Rect.block (s := S4x12x1x64) S1x1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x64.size a ≤ S4x12x1x64.size a
  hwx0_4 : ∀ i : grid0.Coords, EltTy.bits .f32 = 32 ∨ (Rect.block (s := S4x12x1x64) S1x1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S4x1x2048.size a
  hwx0_5 : ∀ i : grid0.Coords, EltTy.bits .f32 = 32 ∨ (Rect.block (s := S4x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x64.size a ≤ S4x12x2048x64.size a
  hwx0_6 : ∀ i : grid0.Coords, EltTy.bits .f32 = 32 ∨ (Rect.block (s := S4x12x2048x64) S1x1x512x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x512x2049.size a ≤ S4x12x2048x2049.size a
  hwx0_7 : ∀ i : grid0.Coords, EltTy.bits .f32 = 32 ∨ (Rect.block (s := S4x12x2048x2049) S1x1x512x2049.size (cc0_transform_7 i) (hinb0_7 i)).WholeWords (EltTy.packing .f32)

variable [Facts₀]

def dot_S4x256_S256x768_S4x768_1_0_0_1_n_n : DotDims S4x256 S256x768 S4x768 where
  lhsContracting := [1]
  rhsContracting := [0]
  lhsNonContracting := [0]
  rhsNonContracting := [1]
  lhsBatch := []
  rhsBatch := []
  wf := dot_S4x256_S256x768_S4x768_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v13) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S1x1x512x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x1x512x2049.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x12x2048x64 : Shape := ⟨4, ![4, 12, 2048, 64]⟩
abbrev S4x256 : Shape := ⟨2, ![4, 256]⟩
abbrev S4x2048 : Shape := ⟨2, ![4, 2048]⟩
abbrev S256x768 : Shape := ⟨2, ![256, 768]⟩
abbrev S768 : Shape := ⟨1, ![768]⟩
abbrev S4x768 : Shape := ⟨2, ![4, 768]⟩
abbrev S1x768 : Shape := ⟨2, ![1, 768]⟩
abbrev S4x1x12x64 : Shape := ⟨4, ![4, 1, 12, 64]⟩
abbrev S4x12x1x64 : Shape := ⟨4, ![4, 12, 1, 64]⟩
abbrev S4x12x2049x64 : Shape := ⟨4, ![4, 12, 2049, 64]⟩
abbrev S_ : Shape := ⟨0, ![]⟩
abbrev S4x1 : Shape := ⟨2, ![4, 1]⟩
abbrev S4x2049 : Shape := ⟨2, ![4, 2049]⟩
abbrev S4x12x2048x2049 : Shape := ⟨4, ![4, 12, 2048, 2049]⟩
abbrev S4x1x1x2049 : Shape := ⟨4, ![4, 1, 1, 2049]⟩
abbrev S4x12x2048 : Shape := ⟨3, ![4, 12, 2048]⟩
abbrev S4x12x2048x1 : Shape := ⟨4, ![4, 12, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x12x2048x64, .f32⟩
  | .hbm, ⟨1, _⟩ => ⟨S4x12x2048x64, .f32⟩
  | .hbm, ⟨2, _⟩ => ⟨S4x12x2048x64, .f32⟩
  | .hbm, ⟨3, _⟩ => ⟨S4x256, .f32⟩
  | .hbm, ⟨4, _⟩ => ⟨S4x2048, .f32⟩
  | .hbm, ⟨5, _⟩ => ⟨S256x768, .f32⟩
  | .hbm, ⟨6, _⟩ => ⟨S768, .f32⟩
  | .hbm, ⟨7, _⟩ => ⟨S256x768, .f32⟩
  | .hbm, ⟨8, _⟩ => ⟨S768, .f32⟩
  | .hbm, ⟨9, _⟩ => ⟨S4x768, .f32⟩
  | .hbm, ⟨10, _⟩ => ⟨S1x768, .f32⟩
  | .hbm, ⟨11, _⟩ => ⟨S4x768, .f32⟩
  | .hbm, ⟨12, _⟩ => ⟨S4x768, .f32⟩
  | .hbm, ⟨13, _⟩ => ⟨S4x1x12x64, .f32⟩
  | .hbm, ⟨14, _⟩ => ⟨S4x12x1x64, .f32⟩
  | .hbm, ⟨15, _⟩ => ⟨S4x768, .f32⟩
  | .hbm, ⟨16, _⟩ => ⟨S1x768, .f32⟩
  | .hbm, ⟨17, _⟩ => ⟨S4x768, .f32⟩
  | .hbm, ⟨18, _⟩ => ⟨S4x768, .f32⟩
  | .hbm, ⟨19, _⟩ => ⟨S4x1x12x64, .f32⟩
  | .hbm, ⟨20, _⟩ => ⟨S4x12x1x64, .f32⟩
  | .hbm, ⟨21, _⟩ => ⟨S4x12x2049x64, .f32⟩
  | .hbm, ⟨22, _⟩ => ⟨S4x12x2049x64, .f32⟩
  | .hbm, ⟨23, _⟩ => ⟨S_, .f32⟩
  | .hbm, ⟨24, _⟩ => ⟨S4x1, .f32⟩
  | .hbm, ⟨25, _⟩ => ⟨S4x2049, .f32⟩
  | .hbm, ⟨26, _⟩ => ⟨S4x12x2048x2049, .f32⟩
  | .hbm, ⟨27, _⟩ => ⟨S_, .f32⟩
  | .hbm, ⟨28, _⟩ => ⟨S4x12x2048x2049, .f32⟩
  | .hbm, ⟨29, _⟩ => ⟨S4x12x2048x2049, .f32⟩
  | .hbm, ⟨30, _⟩ => ⟨S_, .f32⟩
  | .hbm, ⟨31, _⟩ => ⟨S4x2049, .f32⟩
  | .hbm, ⟨32, _⟩ => ⟨S4x2049, .f32⟩
  | .hbm, ⟨33, _⟩ => ⟨S4x1x1x2049, .f32⟩
  | .hbm, ⟨34, _⟩ => ⟨S_, .f32⟩
  | .hbm, ⟨35, _⟩ => ⟨S4x1x1x2049, .f32⟩
  | .hbm, ⟨36, _⟩ => ⟨S4x1x1x2049, .f32⟩
  | .hbm, ⟨37, _⟩ => ⟨S4x12x2048x2049, .f32⟩
  | .hbm, ⟨38, _⟩ => ⟨S4x12x2048x2049, .f32⟩
  | .hbm, ⟨39, _⟩ => ⟨S_, .f32⟩
  | .hbm, ⟨40, _⟩ => ⟨S4x12x2048, .f32⟩
  | .hbm, ⟨41, _⟩ => ⟨S_, .f32⟩
  | .hbm, ⟨42, _⟩ => ⟨S4x12x2048, .f32⟩
  | .hbm, ⟨43, _⟩ => ⟨S4x12x2048, .f32⟩
  | .hbm, ⟨44, _⟩ => ⟨S4x12x2048x1, .f32⟩
  | .hbm, ⟨45, _⟩ => ⟨S4x12x2048x2049, .f32⟩
  | .hbm, ⟨46, _⟩ => ⟨S4x12x2048x2049, .f32⟩
  | .hbm, ⟨47, _⟩ => ⟨S4x12x2048x2049, .f32⟩
  | .hbm, ⟨48, _⟩ => ⟨S_, .f32⟩
  | .hbm, ⟨49, _⟩ => ⟨S4x12x2048, .f32⟩
  | .hbm, ⟨50, _⟩ => ⟨S4x12x2048x1, .f32⟩
  | .hbm, ⟨51, _⟩ => ⟨S4x12x2048x2049, .f32⟩
  | .hbm, ⟨52, _⟩ => ⟨S4x12x2048x2049, .f32⟩
  | .hbm, ⟨53, _⟩ => ⟨S4x12x2048x64, .f32⟩
  | _, _ => ⟨S4x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S4x768_0_1 : S1x768.BroadcastsInDim S4x768 (![0, 1] : Fin 2 → Fin S4x768.rank)
  shapeCasts_S4x768_S4x1x12x64 : S4x768.ShapeCasts S4x1x12x64
  transposes_S4x1x12x64_S4x12x1x64_0_2_1_3 : S4x1x12x64.Transposes [0, 2, 1, 3] S4x12x1x64
  concatenates_S4x12x1x64_S4x12x2048x64_S4x12x2049x64_d2 : Shape.Concatenates [S4x12x1x64, S4x12x2048x64] S4x12x2049x64 2
  bcast_S_S4x1 : S_.BroadcastsInDim S4x1 (![] : Fin 0 → Fin S4x1.rank)
  concatenates_S4x1_S4x2048_S4x2049_d1 : Shape.Concatenates [S4x1, S4x2048] S4x2049 1
  bcast_S_S4x12x2048x2049 : S_.BroadcastsInDim S4x12x2048x2049 (![] : Fin 0 → Fin S4x12x2048x2049.rank)
  bcast_S_S4x2049 : S_.BroadcastsInDim S4x2049 (![] : Fin 0 → Fin S4x2049.rank)
  bcast_S4x2049_S4x1x1x2049_0_3 : S4x2049.BroadcastsInDim S4x1x1x2049 (![0, 3] : Fin 2 → Fin S4x1x1x2049.rank)
  bcast_S_S4x1x1x2049 : S_.BroadcastsInDim S4x1x1x2049 (![] : Fin 0 → Fin S4x1x1x2049.rank)
  bcast_S4x1x1x2049_S4x12x2048x2049_0_1_2_3 : S4x1x1x2049.BroadcastsInDim S4x12x2048x2049 (![0, 1, 2, 3] : Fin 4 → Fin S4x12x2048x2049.rank)
  reducesTo_S4x12x2048x2049_S4x12x2048_d3 : S4x12x2048x2049.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2049_0_1_2_3 : S4x12x2048x1.BroadcastsInDim S4x12x2048x2049 (![0, 1, 2, 3] : Fin 4 → Fin S4x12x2048x2049.rank)
  dot_S4x256_S256x768_S4x768_1_0_0_1_n_n_wf : DotDims.WF S4x256 S256x768 S4x768 [1] [0] [0] [1] [] []
  dot_S4x12x2048x64_S4x12x2049x64_S4x12x2048x2049_3_3_2_2_01_01_wf : DotDims.WF S4x12x2048x64 S4x12x2049x64 S4x12x2048x2049 [3] [3] [2] [2] [0, 1] [0, 1]
  dot_S4x12x2048x2049_S4x12x2049x64_S4x12x2048x64_3_2_2_3_01_01_wf : DotDims.WF S4x12x2048x2049 S4x12x2049x64 S4x12x2048x64 [3] [2] [2] [3] [0, 1] [0, 1]

variable [Facts₀]

def dot_S4x256_S256x768_S4x768_1_0_0_1_n_n : DotDims S4x256 S256x768 S4x768 where
  lhsContracting := [1]
  rhsContracting := [0]
  lhsNonContracting := [0]
  rhsNonContracting := [1]
  lhsBatch := []
  rhsBatch := []
  wf := dot_S4x256_S256x768_S4x768_1_0_0_1_n_n_wf
def dot_S4x12x2048x64_S4x12x2049x64_S4x12x2048x2049_3_3_2_2_01_01 : DotDims S4x12x2048x64 S4x12x2049x64 S4x12x2048x2049 where
  lhsContracting := [3]
  rhsContracting := [3]
  lhsNonContracting := [2]
  rhsNonContracting := [2]
  lhsBatch := [0, 1]
  rhsBatch := [0, 1]
  wf := dot_S4x12x2048x64_S4x12x2049x64_S4x12x2048x2049_3_3_2_2_01_01_wf
def dot_S4x12x2048x2049_S4x12x2049x64_S4x12x2048x64_3_2_2_3_01_01 : DotDims S4x12x2048x2049 S4x12x2049x64 S4x12x2048x64 where
  lhsContracting := [3]
  rhsContracting := [2]
  lhsNonContracting := [2]
  rhsNonContracting := [3]
  lhsBatch := [0, 1]
  rhsBatch := [0, 1]
  wf := dot_S4x12x2048x2049_S4x12x2049x64_S4x12x2048x64_3_2_2_3_01_01_wf

class Facts : Prop extends Facts₀ where

variable [Facts]
-- ==== Proof.LibUnitBlocks.lean ====
/-
  Blocks with leading unit axes, read at an index — general in the extents.

  A `1 × 1 × a × b` block recast as an `a × b` matrix reads, at `(i, j)`, the block's entry `(0, 0, i, j)`; the matrix
  recast back as a `1 × 1 × a × b` block reads, at `(u, v, i, j)`, the matrix's entry `(i, j)`; and a `1 × 1 × a` block
  recast as a vector reads, at `i`, the block's entry `(0, 0, i)`. All three are the row-major position written out.
-/
import Idealize.ShloMosaic.Lib.Pipeline.Value
import Idealize.ShloMosaic.Lib.ValueIdx
import Idealize.ShloMosaic.Lib.ValueLayout

namespace Cert.LibUnitBlocks

open Idealize.ShloMosaic Idealize.ShloMosaic.ValueIdx

variable {α : Type}

/-- A `[1, 1, a, b]` block cast to `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- An `[a, b]` matrix cast to `[1, 1, a, b]` reads, at `(u, v, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv, Nat.zero_mul, Nat.zero_add])

/-- A `[1, 1, a]` block cast to `[a]` reads, at `i`, the block at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

end Cert.LibUnitBlocks
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibPrefixSoftmax.lean ====
/-
  A softmax over a row of scores whose first entry (a "prefix" score) is computed apart from the others.

  One side forms the whole row `join a0 a` — the prefix score `a0` followed by the `n` key scores `a` — takes its
  maximum, exponentiates the differences, and divides each by their sum. The other side never forms the row: it takes
  the maximum of the key scores and then of that and the prefix score, sums the keys' exponentials and adds the prefix's,
  and multiplies each exponential by the reciprocal `1 / l` of that sum. On the extended reals the two maxima and the two
  sums are equal by commutativity and associativity alone; `e · (1 / l) = e / l` needs `l ≠ 0` (at `l = 0` the left side
  is `0 · ⊤ = 0` and the right side is the junk quotient `0 / 0`), and `l ≠ 0` holds when the scores are real numbers:
  then the maximum `M` is real, the prefix's exponential `exp (a0 - M)` is a positive real, and the other terms are
  nonnegative.
-/
import Idealize.ShloMosaic.PureOps.Ideal
import Idealize.ShloMosaic.PureOps.Ideal.Laws

noncomputable section

open scoped BigOperators

namespace Cert.PrefixSoftmax

open Idealize.ShloMosaic

variable {n : ℕ}

/-- The row with the prefix entry first. -/
def join {α : Type} (a0 : α) (a : Fin n → α) : Fin (n + 1) → α := Fin.cases a0 a

@[simp] theorem join_zero {α : Type} (a0 : α) (a : Fin n → α) : join a0 a 0 = a0 := rfl
@[simp] theorem join_succ {α : Type} (a0 : α) (a : Fin n → α) (k : Fin n) : join a0 a k.succ = a k := rfl

/-- The largest entry of a row (`⊥` for the empty row). -/
def top {m : ℕ} (s : Fin m → EReal) : EReal := (Finset.univ : Finset (Fin m)).fold max ⊥ s

/-- The softmax weight of entry `j` of a row: the exponential of its distance to the row's maximum over the sum of these. -/
def weight {m : ℕ} (s : Fin m → EReal) (j : Fin m) : EReal :=
  Ideal.div (Ideal.exp (s j - top s)) (∑ j', Ideal.exp (s j' - top s))

/-- The maximum of the joined row is the maximum of the keys' maximum and the prefix score. -/
theorem top_join (a0 : EReal) (a : Fin n → EReal) : top (join a0 a) = max (top a) a0 := by
  unfold top
  rw [Fin.univ_succ, Finset.fold_cons, Finset.fold_map, max_comm]
  rfl

variable (a0 : EReal) (a : Fin n → EReal)

/-- The maximum as the second side takes it. -/
def kTop : EReal := max (top a) a0

/-- The normaliser as the second side takes it: the keys' exponentials summed, plus the prefix's. -/
def kSum : EReal := (∑ k, Ideal.exp (a k - kTop a0 a)) + Ideal.exp (a0 - kTop a0 a)

theorem sum_join : ∑ j, Ideal.exp (join a0 a j - top (join a0 a)) = kSum a0 a := by
  rw [Fin.sum_univ_succ, top_join, add_comm]
  rfl

theorem exp_nonneg (x : EReal) : 0 ≤ Ideal.exp x := by
  induction x using EReal.rec with
  | bot => exact le_refl _
  | coe r => exact EReal.coe_nonneg.2 (Real.exp_pos r).le
  | top => exact le_top

/-- With real scores the normaliser is not zero. -/
theorem kSum_ne_zero (h0 : ∃ r : ℝ, a0 = (r : EReal)) (ha : ∀ k, ∃ r : ℝ, a k = (r : EReal)) : kSum a0 a ≠ 0 := by
  obtain ⟨r0, rfl⟩ := h0
  have htop : top a < ⊤ := by
    unfold top
    rw [Finset.fold_max_lt]
    refine ⟨bot_lt_top, fun k _ => ?_⟩
    obtain ⟨r, hr⟩ := ha k
    rw [hr]; exact EReal.coe_lt_top r
  have hM : kTop (r0 : EReal) a < ⊤ := max_lt htop (EReal.coe_lt_top r0)
  have hM' : (r0 : EReal) ≤ kTop (r0 : EReal) a := le_max_right _ _
  have hpos : 0 < Ideal.exp ((r0 : EReal) - kTop (r0 : EReal) a) := by
    generalize kTop (r0 : EReal) a = M at hM hM'
    induction M using EReal.rec with
    | bot => exact absurd hM' (not_le.2 (EReal.bot_lt_coe r0))
    | coe q =>
      rw [← EReal.coe_sub]
      exact EReal.coe_pos.2 (Real.exp_pos _)
    | top => exact absurd hM (lt_irrefl _)
  have hS : 0 ≤ ∑ k, Ideal.exp (a k - kTop (r0 : EReal) a) := Finset.sum_nonneg fun k _ => exp_nonneg _
  exact (lt_of_lt_of_le hpos (le_add_of_nonneg_left hS)).ne'

/-- Multiplying by the reciprocal of a nonzero extended real is dividing by it. -/
theorem mul_one_div {x l : EReal} (h : l ≠ 0) : x * Ideal.div 1 l = Ideal.div x l := by
  unfold Ideal.div
  rw [if_neg h, if_neg h, one_mul]

theorem weight_zero (h : kSum a0 a ≠ 0) :
    Ideal.exp (a0 - kTop a0 a) * Ideal.div 1 (kSum a0 a) = weight (join a0 a) 0 := by
  unfold weight
  rw [sum_join, top_join, mul_one_div h]
  rfl

theorem weight_succ (h : kSum a0 a ≠ 0) (k : Fin n) :
    Ideal.exp (a k - kTop a0 a) * Ideal.div 1 (kSum a0 a) = weight (join a0 a) k.succ := by
  unfold weight
  rw [sum_join, top_join, mul_one_div h]
  rfl

/-- A weighted sum over the joined row, taken as the keys' part plus the prefix's term. -/
theorem sum_join_mul (w : Fin (n + 1) → EReal) (v0 : EReal) (v : Fin n → EReal) :
    (∑ k, w k.succ * v k) + w 0 * v0 = ∑ j, w j * join v0 v j := by
  rw [Fin.sum_univ_succ, add_comm]
  rfl

end Cert.PrefixSoftmax

end
-- ==== Proof.LibRealSplit.lean ====
/-
  Real numbers inside the extended reals: finite sums, a square root, and an inner product taken over leading parts and
  residuals.

  A finite sum of real numbers taken in the extended reals is a real number (nonnegative if the terms are); the root of
  a nonnegative real is the real root; and when two vectors `u`, `v` have real entries, writing each as a leading part
  (itself) plus a residual (itself minus itself, which is `0` exactly because the entry is finite: `⊤ − ⊤ = ⊥`) and
  summing leading·leading + leading·residual + residual·leading gives the plain inner product `∑ u·v`. The last is
  what remains, on the extended reals, of computing a product of two high-precision matrices as three products of their
  low-precision leading parts and residuals.
-/
import Idealize.ShloMosaic.PureOps.Ideal
import Idealize.ShloMosaic.PureOps.Ideal.Laws

noncomputable section

open scoped BigOperators

namespace Cert.LibRealSplit

open Idealize.ShloMosaic

/-! ## Finite sums of reals -/

/-- A finite sum of real numbers, taken in the extended reals, is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

/-- A finite sum of nonnegative real numbers is a nonnegative real number. -/
theorem nonneg_real_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by rw [Finset.sum_empty, EReal.coe_zero]⟩
  | insert a s ha ih =>
    obtain ⟨r, hr0, hr⟩ := h a (Finset.mem_insert_self a s)
    obtain ⟨q, hq0, hq⟩ := ih fun i hi => h i (Finset.mem_insert_of_mem hi)
    exact ⟨r + q, add_nonneg hr0 hq0, by rw [Finset.sum_insert ha, hr, hq, EReal.coe_add]⟩

/-- The root of a nonnegative real is the real root. -/
theorem sqrt_coe {r : ℝ} (h : 0 ≤ r) : Ideal.sqrt (r : EReal) = ((Real.sqrt r : ℝ) : EReal) := by
  show (if r < 0 then ⊥ else (Real.sqrt r : EReal)) = _
  rw [if_neg (not_lt.2 h)]

/-! ## The residual products vanish -/

/-- For vectors with real entries the leading-part-and-residual inner product is the plain inner product. -/
theorem split_sum_eq {M : ℕ} (pq pk : Fin M → EReal) (hq : ∀ j, ∃ r : ℝ, pq j = (r : EReal))
    (hk : ∀ j, ∃ r : ℝ, pk j = (r : EReal)) :
    (∑ j, pq j * pk j) + (∑ j, pq j * (pk j - pk j)) + (∑ j, (pq j - pq j) * pk j) = ∑ j, pq j * pk j := by
  have h0 : ∀ z : EReal, (∃ r : ℝ, z = (r : EReal)) → z - z = 0 := by
    rintro z ⟨r, rfl⟩
    rw [← EReal.coe_sub, sub_self, EReal.coe_zero]
  have eq : ∀ j, pq j - pq j = 0 := fun j => h0 _ (hq j)
  have ek : ∀ j, pk j - pk j = 0 := fun j => h0 _ (hk j)
  simp only [eq, ek, mul_zero, zero_mul, Finset.sum_const_zero, add_zero]

end Cert.LibRealSplit

end
-- ==== Proof.AttnSpec.lean ====
/-
  Attention with one prefix key and value per head, as one function of the arrays.

  For batch `b`, head `h` and query row `r` the scores are, first, the prefix score `(q · pk) · c` and then, for each key row
  `k`, `(q · k_k) · c + (1 - m_k) · β` (`c` the scale one eighth, `β` the bias of a masked-out key); the weights are the
  softmax of that row of 2049 scores; the context is the weighted sum of the prefix value and the value rows. Also here:
  the constants as extended reals, and the closure of the real numbers under the operations the scores use.
-/
import Idealize.ShloMosaic.Lib.ValueIdx
import Idealize.ShloMosaic.Lib.IdealHost
import proofs.«164120_j26182120636596_2_alg».proof.Proof.LibPrefixSoftmax
import proofs.«164120_j26182120636596_2_alg».proof.Proof.LibRealSplit

noncomputable section

open scoped BigOperators

namespace Cert.AttnSpec

open Idealize.ShloMosaic Idealize.ShloMosaic.ValueIdx Cert.PrefixSoftmax

/-! ## The constants -/

/-- The score scale `0.125`, the mask's one, and the masked-out bias `-10000`, as the words the programs spell. -/
abbrev cScale : EReal := Ideal.ofBits .f32 0x3E000000#32
abbrev cOne : EReal := Ideal.ofBits .f32 0x3F800000#32
abbrev cBias : EReal := Ideal.ofBits .f32 0xC61C4000#32
/-- The divisor `8.0` one of the programs spells instead of the scale. -/
abbrev cEight : EReal := Ideal.ofBits .f32 0x41000000#32

theorem cScale_eq : cScale = (((1 : ℝ) / 8 : ℝ) : EReal) := by
  simp [Ideal.ofBits, Ideal.ieee, -EReal.coe_mul]; norm_num

theorem cEight_eq : cEight = ((8 : ℝ) : EReal) := by
  simp [Ideal.ofBits, Ideal.ieee, -EReal.coe_mul]; norm_num

theorem cOne_eq : cOne = ((1 : ℝ) : EReal) := by
  rw [show cOne = 1 from Ideal.ofBits_one_f32]; norm_cast

theorem cBias_eq : cBias = ((-10000 : ℝ) : EReal) := by
  simp [Ideal.ofBits, Ideal.ieee, -EReal.coe_mul, -EReal.coe_neg]; norm_num

theorem ofBits_neg_inf : Ideal.ofBits .f32 0xFF800000#32 = ⊥ := by
  simp [Ideal.ofBits, Ideal.ieee]

/-- Dividing by eight is multiplying by the scale, for every extended real. -/
theorem div_eight (x : EReal) : Ideal.div x cEight = x * cScale := by
  rw [cEight_eq, cScale_eq]
  exact Ideal.div_coe (by norm_num) x

/-! ## Real numbers among the extended reals -/

theorem real_mul {x y : EReal} (hx : ∃ r : ℝ, x = (r : EReal)) (hy : ∃ r : ℝ, y = (r : EReal)) : ∃ r : ℝ, x * y = (r : EReal) := by
  obtain ⟨r, rfl⟩ := hx; obtain ⟨q, rfl⟩ := hy; exact ⟨r * q, (EReal.coe_mul r q).symm⟩

theorem real_add {x y : EReal} (hx : ∃ r : ℝ, x = (r : EReal)) (hy : ∃ r : ℝ, y = (r : EReal)) : ∃ r : ℝ, x + y = (r : EReal) := by
  obtain ⟨r, rfl⟩ := hx; obtain ⟨q, rfl⟩ := hy; exact ⟨r + q, (EReal.coe_add r q).symm⟩

theorem real_sub {x y : EReal} (hx : ∃ r : ℝ, x = (r : EReal)) (hy : ∃ r : ℝ, y = (r : EReal)) : ∃ r : ℝ, x - y = (r : EReal) := by
  obtain ⟨r, rfl⟩ := hx; obtain ⟨q, rfl⟩ := hy; exact ⟨r - q, (EReal.coe_sub r q).symm⟩

theorem real_dot {ι : Type} [Fintype ι] (f g : ι → EReal) (hf : ∀ i, ∃ r : ℝ, f i = (r : EReal)) (hg : ∀ i, ∃ r : ℝ, g i = (r : EReal)) :
    ∃ r : ℝ, ∑ i, f i * g i = (r : EReal) :=
  LibRealSplit.real_sum _ _ fun i _ => real_mul (hf i) (hg i)

/-! ## The specification -/

abbrev Rows := (⟨4, ![4, 12, 2048, 64]⟩ : Shape).Idx → EReal
abbrev Prefix := (⟨4, ![4, 12, 1, 64]⟩ : Shape).Idx → EReal
abbrev Mask := (⟨2, ![4, 2048]⟩ : Shape).Idx → EReal

/-- The prefix score of query row `r`. -/
def preScore (Q : Rows) (PK : Prefix) (b : Fin 4) (h : Fin 12) (r : Fin 2048) : EReal :=
  (∑ d : Fin 64, Q (ix4 b h r d) * PK (ix4 b h 0 d)) * cScale

/-- The score of query row `r` against key row `k`. -/
def keyScore (Q K : Rows) (Mk : Mask) (b : Fin 4) (h : Fin 12) (r : Fin 2048) (k : Fin 2048) : EReal :=
  (∑ d : Fin 64, Q (ix4 b h r d) * K (ix4 b h k d)) * cScale + (cOne - Mk (ix2 b k)) * cBias

/-- The row of 2049 scores, the prefix score first. -/
def rowScores (Q K : Rows) (PK : Prefix) (Mk : Mask) (b : Fin 4) (h : Fin 12) (r : Fin 2048) : Fin 2049 → EReal :=
  join (preScore Q PK b h r) (keyScore Q K Mk b h r)

/-- The attention weight of query row `r` on entry `j` of the extended key axis. -/
def gW (Q K : Rows) (PK : Prefix) (Mk : Mask) (b : Fin 4) (h : Fin 12) (r : Fin 2048) (j : Fin 2049) : EReal :=
  weight (rowScores Q K PK Mk b h r) j

/-- The context of query row `r` at feature `d`. -/
def gCtx (Q K V : Rows) (PK PV : Prefix) (Mk : Mask) (b : Fin 4) (h : Fin 12) (r : Fin 2048) (d : Fin 64) : EReal :=
  ∑ j, weight (rowScores Q K PK Mk b h r) j * join (PV (ix4 b h 0 d)) (fun k => V (ix4 b h k d)) j

/-- The weights as one array. -/
def GW (Q K : Rows) (PK : Prefix) (Mk : Mask) : (⟨4, ![4, 12, 2048, 2049]⟩ : Shape).Idx → EReal :=
  fun i => gW Q K PK Mk (i 0) (i 1) (i 2) (i 3)

/-- The contexts as one array. -/
def GCtx (Q K V : Rows) (PK PV : Prefix) (Mk : Mask) : Rows :=
  fun i => gCtx Q K V PK PV Mk (i 0) (i 1) (i 2) (i 3)

/-- With real queries, keys, prefix key and mask, a row's scores are real, so its normaliser is not zero. -/
theorem kSum_rowScores_ne_zero (Q K : Rows) (PK : Prefix) (Mk : Mask)
    (hQ : ∀ i, ∃ r : ℝ, Q i = (r : EReal)) (hK : ∀ i, ∃ r : ℝ, K i = (r : EReal))
    (hPK : ∀ i, ∃ r : ℝ, PK i = (r : EReal)) (hM : ∀ i, ∃ r : ℝ, Mk i = (r : EReal))
    (b : Fin 4) (h : Fin 12) (r : Fin 2048) :
    kSum (preScore Q PK b h r) (keyScore Q K Mk b h r) ≠ 0 := by
  refine kSum_ne_zero _ _ ?_ fun k => ?_
  · exact real_mul (real_dot _ _ (fun d => hQ _) (fun d => hPK _)) ⟨_, cScale_eq⟩
  · exact real_add (real_mul (real_dot _ _ (fun d => hQ _) (fun d => hK _)) ⟨_, cScale_eq⟩)
      (real_mul (real_sub ⟨_, cOne_eq⟩ (hM _)) ⟨_, cBias_eq⟩)

end Cert.AttnSpec

end
-- ==== Proof.KernelRows.lean ====
/-
  The attention kernel's body, one query row at a time.

  At a grid point the body holds a block of 512 query rows `q`, all 2048 key rows `k` and value rows `v` of one head, that
  head's prefix key `pk` and prefix value `pv`, and the batch's mask `m`. For a query row `p` it forms the key scores
  `(q_p · k_j) · c + (1 - m_j) · b` and the prefix score `(q_p · pk) · c`, and from them the softmax weights with the prefix
  entry first, and the weighted sum of the value rows plus the prefix weight times `pv`. Each payload below is read at an
  entry; the softmax itself is the row law of the prefix-softmax module.
-/
import proofs.«164120_j26182120636596_2_alg».proof.Proof.Gen.KernelIdeal.Skeleton
import proofs.«164120_j26182120636596_2_alg».proof.Proof.LibUnitBlocks
import proofs.«164120_j26182120636596_2_alg».proof.Proof.LibColumns
import proofs.«164120_j26182120636596_2_alg».proof.Proof.LibRowMax
import proofs.«164120_j26182120636596_2_alg».proof.Proof.LibConcatCols
import proofs.«164120_j26182120636596_2_alg».proof.Proof.LibPlainDot
import proofs.«164120_j26182120636596_2_alg».proof.Proof.LibPrefixSoftmax
import proofs.«164120_j26182120636596_2_alg».proof.Proof.AttnSpec
import Idealize.ShloMosaic.Lib.ValueLayout
import Idealize.ShloMosaic.Lib.IdealHost

noncomputable section

open scoped BigOperators

namespace Cert.KernelIdeal.Rows

open Cert.KernelIdeal Cert.KernelIdeal.Gen Idealize.ShloMosaic Idealize.ShloMosaic.ValueIdx Cert.PrefixSoftmax

/-! ## The two matrix products' index maps -/

local notation "D1" => dot_S512x64_S64x2048_S512x2048_1_0_0_1_n_n
local notation "D2" => dot_S512x2048_S2048x64_S512x64_1_0_0_1_n_n

theorem d1_l0 (i : S512x2048.Idx) (q : (D1).contr.Idx) : ((D1).lhsIdx i q 0).val = (i 0).val := by
  unfold DotDims.lhsIdx
  rw [dif_neg (show ¬(0 : Fin S512x64.rank) ∈ (D1).lhsBatch by decide), dif_pos (show (0 : Fin S512x64.rank) ∈ (D1).lhsNonContracting by decide)]
  rfl
theorem d1_l1 (i : S512x2048.Idx) (q : (D1).contr.Idx) : ((D1).lhsIdx i q 1).val = (q ⟨0, by decide⟩).val :=
  (D1).lhsIdx_val_of_single rfl i q
theorem d1_r0 (i : S512x2048.Idx) (q : (D1).contr.Idx) : ((D1).rhsIdx i q 0).val = (q ⟨0, by decide⟩).val :=
  (D1).rhsIdx_val_of_single rfl i q
theorem d1_r1 (i : S512x2048.Idx) (q : (D1).contr.Idx) : ((D1).rhsIdx i q 1).val = (i 1).val := by
  unfold DotDims.rhsIdx
  rw [dif_neg (show ¬(1 : Fin S64x2048.rank) ∈ (D1).rhsBatch by decide), dif_pos (show (1 : Fin S64x2048.rank) ∈ (D1).rhsNonContracting by decide)]
  rfl

theorem d2_l0 (i : S512x64.Idx) (q : (D2).contr.Idx) : ((D2).lhsIdx i q 0).val = (i 0).val := by
  unfold DotDims.lhsIdx
  rw [dif_neg (show ¬(0 : Fin S512x2048.rank) ∈ (D2).lhsBatch by decide), dif_pos (show (0 : Fin S512x2048.rank) ∈ (D2).lhsNonContracting by decide)]
  rfl
theorem d2_l1 (i : S512x64.Idx) (q : (D2).contr.Idx) : ((D2).lhsIdx i q 1).val = (q ⟨0, by decide⟩).val :=
  (D2).lhsIdx_val_of_single rfl i q
theorem d2_r0 (i : S512x64.Idx) (q : (D2).contr.Idx) : ((D2).rhsIdx i q 0).val = (q ⟨0, by decide⟩).val :=
  (D2).rhsIdx_val_of_single rfl i q
theorem d2_r1 (i : S512x64.Idx) (q : (D2).contr.Idx) : ((D2).rhsIdx i q 1).val = (i 1).val := by
  unfold DotDims.rhsIdx
  rw [dif_neg (show ¬(1 : Fin S2048x64.rank) ∈ (D2).rhsBatch by decide), dif_pos (show (1 : Fin S2048x64.rank) ∈ (D2).rhsNonContracting by decide)]
  rfl

/-! ## The scores -/

open Cert.AttnSpec (cScale cOne cBias)

/-- The key score of query row `p` against key row `k`, from the blocks. -/
def blkKeyScore (q : S1x1x512x64.Idx → EReal) (kk : S1x1x2048x64.Idx → EReal) (mk : S1x1x2048.Idx → EReal) (p : Fin 512) (k : Fin 2048) : EReal :=
  (∑ d : Fin 64, q (ix4 0 0 p d) * kk (ix4 0 0 k d)) * cScale + (cOne - mk (ix3 0 0 k)) * cBias

/-- The prefix score of query row `p`, before the scale. -/
def blkPrefixDot (q : S1x1x512x64.Idx → EReal) (pk : S1x1x1x64.Idx → EReal) (p : Fin 512) : EReal :=
  ∑ d : Fin 64, q (ix4 0 0 p d) * pk (ix4 0 0 0 d)

theorem pay13_apply (v0 : Vec Ideal S1x1x512x64 .bf16) (v2 : Vec Ideal S1x1x2048x64 .bf16) (v10 : Vec Ideal S1x1x2048 .f32)
    (p : Fin 512) (k : Fin 2048) :
    k0_pay13 (F := Ideal) v0 v2 v10 (ix2 p k) = blkKeyScore v0 v2 v10 p k := by
  unfold k0_pay13 k0_pay10 blkKeyScore
  simp only [addf_apply, mulf_apply, subf_apply, broadcast_apply]
  refine congrArg₂ (· + ·) (congrArg (· * _) ?_) ?_
  · refine (PlainDot.matmul_zero_apply D1 rfl rfl d1_l0 d1_l1 d1_r0 d1_r1 none _ _ p k).trans ?_
    refine Finset.sum_congr rfl fun d _ => congrArg₂ (· * ·) ?_ ?_
    · exact LibUnitBlocks.shapeCast_11ab_ab_apply _ _ p d
    · exact (transpose_ix2_apply _ _ d k).trans (LibUnitBlocks.shapeCast_11ab_ab_apply _ _ k d)
  · refine (broadcastTo_1b_ab_apply _ _ p k).trans ?_
    refine congrArg (· * _) ?_
    refine (shapeCast_a_1a_apply _ _ 0 k).trans ?_
    exact congrArg (cOne - ·) (LibUnitBlocks.shapeCast_11a_a_apply _ _ k)

theorem pay14_apply (v0 : Vec Ideal S1x1x512x64 .bf16) (v6 : Vec Ideal S1x1x1x64 .f32) (p : Fin 512) (z : Fin 1) :
    k0_pay14 (F := Ideal) v0 v6 (ix2 p z) = blkPrefixDot v0 v6 p := by
  unfold k0_pay14 k0_pay10 blkPrefixDot
  refine (LibColumns.shapeCast_a_a1_apply _ _ p z).trans ?_
  refine (LibColumns.rowSum_apply _ _ _ _ _ p).trans ?_
  refine Finset.sum_congr rfl fun d _ => congrArg₂ (· * ·) ?_ ?_
  · exact LibUnitBlocks.shapeCast_11ab_ab_apply _ _ p d
  · exact (broadcastTo_1b_ab_apply _ _ p d).trans (LibUnitBlocks.shapeCast_11ab_ab_apply _ _ 0 d)

/-! ## The softmax of one row -/

section Row

variable (v22 : FVec Ideal S512x2048 .f32) (v27 : FVec Ideal S512x1 .f32) (c : Ideal .f32) (p : Fin 512)

/-- Row `p`'s key scores and (scaled) prefix score, as the softmax takes them. -/
abbrev keys : Fin 2048 → EReal := fun k => v22 (ix2 p k)
abbrev pre : EReal := v27 (ix2 p 0) * c

theorem pay1_apply : k0_pay1 (F := Ideal) v27 c (ix2 p 0) = pre v27 c p := by
  unfold k0_pay1
  try dsimp only
  rw [mulf_apply, broadcast_apply]

theorem pay2_apply : k0_pay2 (F := Ideal) v22 v27 c (ix2 p 0) = kTop (pre v27 c p) (keys v22 p) := by
  unfold k0_pay2 kTop top
  try dsimp only
  rw [maximumf_apply, pay1_apply]
  refine congrArg₂ (fun x y : EReal => max x y) ?_ rfl
  refine (LibColumns.shapeCast_a_a1_apply _ _ p 0).trans ?_
  refine (LibRowMax.rowMax_apply _ _ _ _ _ p).trans ?_
  exact congrArg (fun b : EReal => Finset.fold max b (keys v22 p) Finset.univ) AttnSpec.ofBits_neg_inf

/-- The exponential of a whole array, read at an index. -/
theorem exp_apply {s : Shape} (a : FVec Ideal s .f32) (i : s.Idx) : exp a i = Ideal.exp (a i) := rfl

theorem pay3_apply (k : Fin 2048) :
    k0_pay3 (F := Ideal) v22 v27 c (ix2 p k) = Ideal.exp (keys v22 p k - kTop (pre v27 c p) (keys v22 p)) := by
  unfold k0_pay3
  try dsimp only
  rw [exp_apply, subf_apply]
  refine congrArg Ideal.exp (congrArg (fun x : EReal => v22 (ix2 p k) - x) ?_)
  exact (LibColumns.broadcastTo_a1_ab_apply _ _ p k).trans (pay2_apply v22 v27 c p)

theorem pay4_apply :
    k0_pay4 (F := Ideal) v22 v27 c (ix2 p 0) = Ideal.exp (pre v27 c p - kTop (pre v27 c p) (keys v22 p)) := by
  unfold k0_pay4
  try dsimp only
  rw [exp_apply, subf_apply, pay1_apply, pay2_apply]

theorem pay5_apply :
    k0_pay5 (F := Ideal) v22 v27 c (ix2 p 0) = Ideal.div 1 (kSum (pre v27 c p) (keys v22 p)) := by
  unfold k0_pay5 kSum
  try dsimp only
  rw [divf_apply, addf_apply, broadcast_apply, pay4_apply]
  refine congrArg₂ (fun x y : EReal => Ideal.div x y) Ideal.ofBits_one_f32 (congrArg (fun x : EReal => x + _) ?_)
  refine (LibColumns.shapeCast_a_a1_apply _ _ p 0).trans ?_
  refine (LibColumns.rowSum_apply _ _ _ _ _ p).trans ?_
  exact Finset.sum_congr rfl fun k _ => pay3_apply v22 v27 c p k

variable (h : kSum (pre v27 c p) (keys v22 p) ≠ 0)

include h in
theorem pay6_apply (k : Fin 2048) :
    k0_pay6 (F := Ideal) v22 v27 c (ix2 p k) = weight (join (pre v27 c p) (keys v22 p)) k.succ := by
  unfold k0_pay6
  try dsimp only
  rw [mulf_apply, pay3_apply, LibColumns.broadcastTo_a1_ab_apply, pay5_apply]
  exact weight_succ _ _ h k

include h in
theorem pay7_apply : k0_pay7 (F := Ideal) v22 v27 c (ix2 p 0) = weight (join (pre v27 c p) (keys v22 p)) 0 := by
  unfold k0_pay7
  try dsimp only
  rw [mulf_apply, pay4_apply, pay5_apply]
  exact weight_zero _ _ h

include h in
/-- The weights tile: the prefix weight in column 0, key `k`'s weight in column `k + 1`. -/
theorem pay8_apply (cc : Fin 2049) :
    k0_pay8 (F := Ideal) v22 v27 c (ix4 0 0 p cc) = weight (join (pre v27 c p) (keys v22 p)) cc := by
  unfold k0_pay8
  try dsimp only
  refine (LibUnitBlocks.shapeCast_ab_11ab_apply _ _ 0 0 p cc).trans ?_
  induction cc using Fin.cases with
  | zero => exact (concatenate_cols_left (k0_pay7 (F := Ideal) v22 v27 c) (k0_pay6 (F := Ideal) v22 v27 c) concatenates_S512x1_S512x2048_S512x2049_d1 p (0 : Fin 2049) (0 : Fin 1) rfl).trans (pay7_apply v22 v27 c p h)
  | succ k => exact (concatenate_cols_right (k0_pay7 (F := Ideal) v22 v27 c) (k0_pay6 (F := Ideal) v22 v27 c) concatenates_S512x1_S512x2048_S512x2049_d1 p k.succ k (Fin.val_succ k).symm).trans (pay6_apply v22 v27 c p h k)

include h in
/-- The context tile: the weighted sum of the value rows with the prefix value first. -/
theorem pay9_apply (v5 : FVec Ideal S2048x64 .bf16) (v9 : FVec Ideal S1x64 .f32) (d : Fin 64) :
    k0_pay9 (F := Ideal) v5 v9 v22 v27 c (ix4 0 0 p d)
      = ∑ j, weight (join (pre v27 c p) (keys v22 p)) j * join (v9 (ix2 0 d)) (fun k => v5 (ix2 k d)) j := by
  unfold k0_pay9
  try dsimp only
  refine (LibUnitBlocks.shapeCast_ab_11ab_apply _ _ 0 0 p d).trans ?_
  rw [addf_apply, mulf_apply, LibColumns.broadcastTo_a1_ab_apply, broadcastTo_1b_ab_apply, pay7_apply v22 v27 c p h]
  refine Eq.trans (congrArg (fun x : EReal => x + _) ?_) (sum_join_mul (weight (join (pre v27 c p) (keys v22 p))) (v9 (ix2 0 d)) (fun k => v5 (ix2 k d)))
  refine (PlainDot.matmul_zero_apply D2 rfl rfl d2_l0 d2_l1 d2_r0 d2_r1 none _ _ p d).trans ?_
  exact Finset.sum_congr rfl fun k _ => congrArg (fun x : EReal => x * v5 (ix2 k d)) (pay6_apply v22 v27 c p h k)

end Row

end Cert.KernelIdeal.Rows

end
-- ==== Proof.KernelFinal.lean ====
/-
  From the kernel's blocks to its two output arrays.

  Grid point `t` works for one batch `b`, one head `h` and 512 consecutive query rows; its windows hold those query rows,
  all key and value rows of `(b, h)`, that head's prefix key and value, and batch `b`'s mask. Reading each block off its
  array turns the body's per-block result into the specification at the array's own indices; the blocks of the two
  output windows tile their arrays, so after the run the arrays are the specification's weights and contexts.
-/
import proofs.«164120_j26182120636596_2_alg».proof.Proof.Gen.KernelIdeal.Value
import proofs.«164120_j26182120636596_2_alg».proof.Proof.KernelRows
import proofs.«164120_j26182120636596_2_alg».proof.Proof.AttnSpec

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Cert.PrefixSoftmax Cert.KernelIdeal.Rows Cert.AttnSpec
open Idealize.ShloMosaic.Pipeline (Dat)

/-! ## The index maps, decided over the 192 grid points -/

theorem idx7_lt : ∀ t : Fin cfg0.N, win0_7.index t (0 : Fin 4) < 4 ∧ win0_7.index t (1 : Fin 4) < 12
    ∧ win0_7.index t (2 : Fin 4) < 4 ∧ win0_7.index t (3 : Fin 4) = 0 :=
  (by decide +kernel : ∀ t : Fin grid0.N, _)

theorem idx0_eq : ∀ t : Fin cfg0.N, win0_0.index t (0 : Fin 4) = win0_7.index t (0 : Fin 4)
    ∧ win0_0.index t (1 : Fin 4) = win0_7.index t (1 : Fin 4) ∧ win0_0.index t (2 : Fin 4) = win0_7.index t (2 : Fin 4)
    ∧ win0_0.index t (3 : Fin 4) = 0 :=
  (by decide +kernel : ∀ t : Fin grid0.N, _)

theorem idx1_eq : ∀ t : Fin cfg0.N, win0_1.index t (0 : Fin 4) = win0_7.index t (0 : Fin 4)
    ∧ win0_1.index t (1 : Fin 4) = win0_7.index t (1 : Fin 4) ∧ win0_1.index t (2 : Fin 4) = 0 ∧ win0_1.index t (3 : Fin 4) = 0 :=
  (by decide +kernel : ∀ t : Fin grid0.N, _)

theorem idx2_eq : ∀ t : Fin cfg0.N, win0_2.index t (0 : Fin 4) = win0_7.index t (0 : Fin 4)
    ∧ win0_2.index t (1 : Fin 4) = win0_7.index t (1 : Fin 4) ∧ win0_2.index t (2 : Fin 4) = 0 ∧ win0_2.index t (3 : Fin 4) = 0 :=
  (by decide +kernel : ∀ t : Fin grid0.N, _)

theorem idx3_eq : ∀ t : Fin cfg0.N, win0_3.index t (0 : Fin 4) = win0_7.index t (0 : Fin 4)
    ∧ win0_3.index t (1 : Fin 4) = win0_7.index t (1 : Fin 4) ∧ win0_3.index t (2 : Fin 4) = 0 ∧ win0_3.index t (3 : Fin 4) = 0 :=
  (by decide +kernel : ∀ t : Fin grid0.N, _)

theorem idx4_eq : ∀ t : Fin cfg0.N, win0_4.index t (0 : Fin 4) = win0_7.index t (0 : Fin 4)
    ∧ win0_4.index t (1 : Fin 4) = win0_7.index t (1 : Fin 4) ∧ win0_4.index t (2 : Fin 4) = 0 ∧ win0_4.index t (3 : Fin 4) = 0 :=
  (by decide +kernel : ∀ t : Fin grid0.N, _)

theorem idx5_eq : ∀ t : Fin cfg0.N, win0_5.index t (0 : Fin 3) = win0_7.index t (0 : Fin 4)
    ∧ win0_5.index t (1 : Fin 3) = 0 ∧ win0_5.index t (2 : Fin 3) = 0 :=
  (by decide +kernel : ∀ t : Fin grid0.N, _)

theorem idx6_eq : ∀ t : Fin cfg0.N, win0_6.index t (0 : Fin 4) = win0_7.index t (0 : Fin 4)
    ∧ win0_6.index t (1 : Fin 4) = win0_7.index t (1 : Fin 4) ∧ win0_6.index t (2 : Fin 4) = win0_7.index t (2 : Fin 4)
    ∧ win0_6.index t (3 : Fin 4) = 0 :=
  (by decide +kernel : ∀ t : Fin grid0.N, _)

/-- Every (batch, head, block of query rows) is some point's. -/
theorem idx_onto7 : ∀ (q0 : Fin 4) (q1 : Fin 12) (q2 : Fin 4), ∃ t : Fin cfg0.N, win0_7.index t = ![q0.val, q1.val, q2.val, 0] :=
  (by decide +kernel : ∀ (q0 : Fin 4) (q1 : Fin 12) (q2 : Fin 4), ∃ t : Fin grid0.N, win0_7.index t = ![q0.val, q1.val, q2.val, 0])

/-- Point `t`'s batch, head, and the array row of its block's row `p`. -/
def ptB (t : Fin cfg0.N) : Fin 4 := ⟨win0_7.index t (0 : Fin 4), (idx7_lt t).1⟩
def ptH (t : Fin cfg0.N) : Fin 12 := ⟨win0_7.index t (1 : Fin 4), (idx7_lt t).2.1⟩
def ptR (t : Fin cfg0.N) (p : Fin 512) : Fin 2048 :=
  ⟨win0_7.index t (2 : Fin 4) * 512 + p.val, by have := (idx7_lt t).2.2.1; have := p.isLt; omega⟩

theorem hz4 : (![0, 0, 0, 0] : Fin 4 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-! ## The arrays the region finds -/

/-- The arrays the windows stage, as the region finds them: queries, keys, values, prefix key, prefix value. -/
abbrev aQ (c : Dev nD) : Rows := V m c main_v13
abbrev aK (c : Dev nD) : Rows := V m c main_v14
abbrev aV (c : Dev nD) : Rows := V m c main_v15
abbrev aPK (c : Dev nD) : Prefix := V m c main_v5
abbrev aPV (c : Dev nD) : Prefix := V m c main_v11
/-- The mask, read through the `[4, 1, 2048]` array the window stages. -/
def aM (c : Dev nD) : Mask := fun i => V m c main_v12 (ix3 (i 0) (0 : Fin 1) (i 1))

/-! ## The input windows' blocks, read off the arrays -/

variable (c : Dev nD) (t : Fin cfg0.N)

theorem blk0_apply (p : Fin 512) (d : Fin 64) :
    iblk m c 0 t (ix4 (0 : Fin 1) (0 : Fin 1) p d : S1x1x512x64.Idx) = aQ m c (ix4 (ptB t) (ptH t) (ptR t p) d) := by
  show V m c main_v13 (((cfg0.win 0).blk t).view.emb (ix4 (0 : Fin 1) (0 : Fin 1) p d : S1x1x512x64.Idx)) = _
  refine congrArg _ (funext fun a => Fin.ext ?_)
  obtain ⟨e0, e1, e2, e3⟩ := idx0_eq t
  match a with
  | ⟨0, _⟩ => show win0_0.index t (0 : Fin 4) * 1 + 1 * 0 = win0_7.index t (0 : Fin 4); omega
  | ⟨1, _⟩ => show win0_0.index t (1 : Fin 4) * 1 + 1 * 0 = win0_7.index t (1 : Fin 4); omega
  | ⟨2, _⟩ => show win0_0.index t (2 : Fin 4) * 512 + 1 * p.val = win0_7.index t (2 : Fin 4) * 512 + p.val; omega
  | ⟨3, _⟩ => show win0_0.index t (3 : Fin 4) * 64 + 1 * d.val = d.val; omega

theorem blk1_apply (k : Fin 2048) (d : Fin 64) :
    iblk m c 1 t (ix4 (0 : Fin 1) (0 : Fin 1) k d : S1x1x2048x64.Idx) = aK m c (ix4 (ptB t) (ptH t) k d) := by
  show V m c main_v14 (((cfg0.win 1).blk t).view.emb (ix4 (0 : Fin 1) (0 : Fin 1) k d : S1x1x2048x64.Idx)) = _
  refine congrArg _ (funext fun a => Fin.ext ?_)
  obtain ⟨e0, e1, e2, e3⟩ := idx1_eq t
  match a with
  | ⟨0, _⟩ => show win0_1.index t (0 : Fin 4) * 1 + 1 * 0 = win0_7.index t (0 : Fin 4); omega
  | ⟨1, _⟩ => show win0_1.index t (1 : Fin 4) * 1 + 1 * 0 = win0_7.index t (1 : Fin 4); omega
  | ⟨2, _⟩ => show win0_1.index t (2 : Fin 4) * 2048 + 1 * k.val = k.val; omega
  | ⟨3, _⟩ => show win0_1.index t (3 : Fin 4) * 64 + 1 * d.val = d.val; omega

theorem blk2_apply (k : Fin 2048) (d : Fin 64) :
    iblk m c 2 t (ix4 (0 : Fin 1) (0 : Fin 1) k d : S1x1x2048x64.Idx) = aV m c (ix4 (ptB t) (ptH t) k d) := by
  show V m c main_v15 (((cfg0.win 2).blk t).view.emb (ix4 (0 : Fin 1) (0 : Fin 1) k d : S1x1x2048x64.Idx)) = _
  refine congrArg _ (funext fun a => Fin.ext ?_)
  obtain ⟨e0, e1, e2, e3⟩ := idx2_eq t
  match a with
  | ⟨0, _⟩ => show win0_2.index t (0 : Fin 4) * 1 + 1 * 0 = win0_7.index t (0 : Fin 4); omega
  | ⟨1, _⟩ => show win0_2.index t (1 : Fin 4) * 1 + 1 * 0 = win0_7.index t (1 : Fin 4); omega
  | ⟨2, _⟩ => show win0_2.index t (2 : Fin 4) * 2048 + 1 * k.val = k.val; omega
  | ⟨3, _⟩ => show win0_2.index t (3 : Fin 4) * 64 + 1 * d.val = d.val; omega

theorem blk3_apply (d : Fin 64) :
    iblk m c 3 t (ix4 (0 : Fin 1) (0 : Fin 1) (0 : Fin 1) d : S1x1x1x64.Idx) = aPK m c (ix4 (ptB t) (ptH t) 0 d) := by
  show V m c main_v5 (((cfg0.win 3).blk t).view.emb (ix4 (0 : Fin 1) (0 : Fin 1) (0 : Fin 1) d : S1x1x1x64.Idx)) = _
  refine congrArg _ (funext fun a => Fin.ext ?_)
  obtain ⟨e0, e1, e2, e3⟩ := idx3_eq t
  match a with
  | ⟨0, _⟩ => show win0_3.index t (0 : Fin 4) * 1 + 1 * 0 = win0_7.index t (0 : Fin 4); omega
  | ⟨1, _⟩ => show win0_3.index t (1 : Fin 4) * 1 + 1 * 0 = win0_7.index t (1 : Fin 4); omega
  | ⟨2, _⟩ => show win0_3.index t (2 : Fin 4) * 1 + 1 * 0 = 0; omega
  | ⟨3, _⟩ => show win0_3.index t (3 : Fin 4) * 64 + 1 * d.val = d.val; omega

theorem blk4_apply (d : Fin 64) :
    iblk m c 4 t (ix4 (0 : Fin 1) (0 : Fin 1) (0 : Fin 1) d : S1x1x1x64.Idx) = aPV m c (ix4 (ptB t) (ptH t) 0 d) := by
  show V m c main_v11 (((cfg0.win 4).blk t).view.emb (ix4 (0 : Fin 1) (0 : Fin 1) (0 : Fin 1) d : S1x1x1x64.Idx)) = _
  refine congrArg _ (funext fun a => Fin.ext ?_)
  obtain ⟨e0, e1, e2, e3⟩ := idx4_eq t
  match a with
  | ⟨0, _⟩ => show win0_4.index t (0 : Fin 4) * 1 + 1 * 0 = win0_7.index t (0 : Fin 4); omega
  | ⟨1, _⟩ => show win0_4.index t (1 : Fin 4) * 1 + 1 * 0 = win0_7.index t (1 : Fin 4); omega
  | ⟨2, _⟩ => show win0_4.index t (2 : Fin 4) * 1 + 1 * 0 = 0; omega
  | ⟨3, _⟩ => show win0_4.index t (3 : Fin 4) * 64 + 1 * d.val = d.val; omega

theorem blk5_apply (k : Fin 2048) :
    iblk m c 5 t (ix3 (0 : Fin 1) (0 : Fin 1) k : S1x1x2048.Idx) = aM m c (ix2 (ptB t) k) := by
  show V m c main_v12 (((cfg0.win 5).blk t).view.emb (ix3 (0 : Fin 1) (0 : Fin 1) k : S1x1x2048.Idx)) = V m c main_v12 (ix3 (ptB t) (0 : Fin 1) k)
  refine congrArg _ (funext fun a => Fin.ext ?_)
  obtain ⟨e0, e1, e2⟩ := idx5_eq t
  match a with
  | ⟨0, _⟩ => show win0_5.index t (0 : Fin 3) * 1 + 1 * 0 = win0_7.index t (0 : Fin 4); omega
  | ⟨1, _⟩ => show win0_5.index t (1 : Fin 3) * 1 + 1 * 0 = 0; omega
  | ⟨2, _⟩ => show win0_5.index t (2 : Fin 3) * 2048 + 1 * k.val = k.val; omega

/-! ## A point's scores are the specification's -/

theorem pt_pre (p : Fin 512) :
    blkPrefixDot (iblk m c 0 t) (iblk m c 3 t) p * cScale = preScore (aQ m c) (aPK m c) (ptB t) (ptH t) (ptR t p) := by
  unfold blkPrefixDot preScore
  refine congrArg (fun x : EReal => x * cScale) (Finset.sum_congr rfl fun d _ => ?_)
  exact congrArg₂ (fun x y : EReal => x * y) (blk0_apply m c t p d) (blk3_apply m c t d)

theorem pt_key (p : Fin 512) :
    blkKeyScore (iblk m c 0 t) (iblk m c 1 t) (iblk m c 5 t) p = keyScore (aQ m c) (aK m c) (aM m c) (ptB t) (ptH t) (ptR t p) := by
  funext k
  unfold blkKeyScore keyScore
  refine congrArg₂ (fun x y : EReal => x * cScale + (cOne - y) * cBias) (Finset.sum_congr rfl fun d _ => ?_) (blk5_apply m c t k)
  exact congrArg₂ (fun x y : EReal => x * y) (blk0_apply m c t p d) (blk1_apply m c t k d)

/-! ## What the body leaves in the two output blocks -/

section Out

variable (x0 : Vec Ideal S1x1x512x64 .bf16) (x1 x2 : Vec Ideal S1x1x2048x64 .bf16) (x3 x4 : Vec Ideal S1x1x1x64 .f32)
  (x5 : Vec Ideal S1x1x2048 .f32) (s0 : EReal) (s : Fin 2048 → EReal) (p : Fin 512)
  (e0 : blkPrefixDot x0 x3 p * cScale = s0) (ea : blkKeyScore x0 x1 x5 p = s) (hne : kSum s0 s ≠ 0)

include e0 ea hne in
/-- The weights block, row `p`: the softmax weights of the row of scores. -/
theorem out7_apply (cc : Fin 2049) :
    out0_7 (F := Ideal) x0 x1 x2 x3 x4 x5 (ix4 (0 : Fin 1) (0 : Fin 1) p cc) = weight (join s0 s) cc := by
  subst e0 ea
  unfold out0_7
  rw [View.canon_unit_zero hz4]
  simp only [View.ld_unit_zero (S := S1x1x512x64) hz4, View.ld_unit_zero (S := S1x1x2048x64) hz4,
    View.ld_unit_zero (S := S1x1x1x64) hz4, View.ld_unit_zero (S := S1x1x2048) hz3]
  have key := pay8_apply (k0_pay13 (F := Ideal) x0 x1 x5) (k0_pay14 (F := Ideal) x0 x3) cScale p
  have e0' : pre (k0_pay14 (F := Ideal) x0 x3) cScale p = blkPrefixDot x0 x3 p * cScale :=
    congrArg (fun x : EReal => x * cScale) (pay14_apply x0 x3 p 0)
  have ea' : keys (k0_pay13 (F := Ideal) x0 x1 x5) p = blkKeyScore x0 x1 x5 p := funext fun k => pay13_apply x0 x1 x5 p k
  rw [e0', ea'] at key
  exact key hne cc

include e0 ea hne in
/-- The context block, row `p`: the weighted sum of the prefix value and the value rows. -/
theorem out6_apply (d : Fin 64) :
    out0_6 (F := Ideal) x0 x1 x2 x3 x4 x5 (ix4 (0 : Fin 1) (0 : Fin 1) p d)
      = ∑ j, weight (join s0 s) j * join (x4 (ix4 (0 : Fin 1) (0 : Fin 1) (0 : Fin 1) d)) (fun k => x2 (ix4 (0 : Fin 1) (0 : Fin 1) k d)) j := by
  subst e0 ea
  unfold out0_6
  rw [View.canon_unit_zero hz4]
  simp only [View.ld_unit_zero (S := S1x1x512x64) hz4, View.ld_unit_zero (S := S1x1x2048x64) hz4,
    View.ld_unit_zero (S := S1x1x1x64) hz4, View.ld_unit_zero (S := S1x1x2048) hz3]
  have key := pay9_apply (k0_pay13 (F := Ideal) x0 x1 x5) (k0_pay14 (F := Ideal) x0 x3) cScale p
  have e0' : pre (k0_pay14 (F := Ideal) x0 x3) cScale p = blkPrefixDot x0 x3 p * cScale :=
    congrArg (fun x : EReal => x * cScale) (pay14_apply x0 x3 p 0)
  have ea' : keys (k0_pay13 (F := Ideal) x0 x1 x5) p = blkKeyScore x0 x1 x5 p := funext fun k => pay13_apply x0 x1 x5 p k
  rw [e0', ea'] at key
  have ev : (fun k : Fin 2048 => k0_pay11 (F := Ideal) x2 (ix2 k d)) = fun k => x2 (ix4 (0 : Fin 1) (0 : Fin 1) k d) :=
    funext fun k => LibUnitBlocks.shapeCast_11ab_ab_apply _ _ k d
  have ep : k0_pay12 (F := Ideal) x4 (ix2 (0 : Fin 1) d) = x4 (ix4 (0 : Fin 1) (0 : Fin 1) (0 : Fin 1) d) :=
    LibUnitBlocks.shapeCast_11ab_ab_apply _ _ (0 : Fin 1) d
  have key2 := key hne (k0_pay11 (F := Ideal) x2) (k0_pay12 (F := Ideal) x4) d
  rw [ev, ep] at key2
  exact key2

end Out

/-! ## What each point writes back -/

variable (hQ : ∀ i, ∃ r : ℝ, aQ m c i = (r : EReal)) (hK : ∀ i, ∃ r : ℝ, aK m c i = (r : EReal))
  (hPK : ∀ i, ∃ r : ℝ, aPK m c i = (r : EReal)) (hM : ∀ i, ∃ r : ℝ, aM m c i = (r : EReal))

include hQ hK hPK hM in
theorem flushed7_eq : (dats m 0 c).flushed 7 t
    = ((cfg0.win 7).blk t).view.read (Elt Ideal) (GW (aQ m c) (aK m c) (aPK m c) (aM m c)) := by
  rw [Value.flushed7]
  funext y
  obtain ⟨u, v, p, cc, rfl⟩ : ∃ (u v : Fin 1) (p : Fin 512) (cc : Fin 2049), y = (ix4 u v p cc : S1x1x512x2049.Idx) :=
    ⟨y 0, y 1, y 2, y 3, eq_ix4 (n0 := 1) (n1 := 1) (n2 := 512) (n3 := 2049) y⟩
  obtain rfl : u = 0 := Subsingleton.elim _ _
  obtain rfl : v = 0 := Subsingleton.elim _ _
  show out0_7 (F := Ideal) (iblk m c 0 t) (iblk m c 1 t) (iblk m c 2 t) (iblk m c 3 t) (iblk m c 4 t) (iblk m c 5 t) (ix4 (0 : Fin 1) (0 : Fin 1) p cc)
    = GW (aQ m c) (aK m c) (aPK m c) (aM m c) (((cfg0.win 7).blk t).view.emb (ix4 (0 : Fin 1) (0 : Fin 1) p cc : S1x1x512x2049.Idx))
  have eidx : ((cfg0.win 7).blk t).view.emb (ix4 (0 : Fin 1) (0 : Fin 1) p cc : S1x1x512x2049.Idx) = ix4 (ptB t) (ptH t) (ptR t p) cc := by
    funext a; apply Fin.ext
    obtain ⟨l0, l1, l2, e3⟩ := idx7_lt t
    match a with
    | ⟨0, _⟩ => show win0_7.index t (0 : Fin 4) * 1 + 1 * 0 = win0_7.index t (0 : Fin 4); omega
    | ⟨1, _⟩ => show win0_7.index t (1 : Fin 4) * 1 + 1 * 0 = win0_7.index t (1 : Fin 4); omega
    | ⟨2, _⟩ => show win0_7.index t (2 : Fin 4) * 512 + 1 * p.val = win0_7.index t (2 : Fin 4) * 512 + p.val; omega
    | ⟨3, _⟩ => show win0_7.index t (3 : Fin 4) * 2049 + 1 * cc.val = cc.val; omega
  rw [eidx]
  exact out7_apply (iblk m c 0 t) (iblk m c 1 t) (iblk m c 2 t) (iblk m c 3 t) (iblk m c 4 t) (iblk m c 5 t) _ _ p
    (pt_pre m c t p) (pt_key m c t p) (kSum_rowScores_ne_zero _ _ _ _ hQ hK hPK hM _ _ _) cc

include hQ hK hPK hM in
theorem flushed6_eq : (dats m 0 c).flushed 6 t
    = ((cfg0.win 6).blk t).view.read (Elt Ideal) (GCtx (aQ m c) (aK m c) (aV m c) (aPK m c) (aPV m c) (aM m c)) := by
  rw [Value.flushed6]
  funext y
  obtain ⟨u, v, p, d, rfl⟩ : ∃ (u v : Fin 1) (p : Fin 512) (d : Fin 64), y = (ix4 u v p d : S1x1x512x64.Idx) :=
    ⟨y 0, y 1, y 2, y 3, eq_ix4 (n0 := 1) (n1 := 1) (n2 := 512) (n3 := 64) y⟩
  obtain rfl : u = 0 := Subsingleton.elim _ _
  obtain rfl : v = 0 := Subsingleton.elim _ _
  show out0_6 (F := Ideal) (iblk m c 0 t) (iblk m c 1 t) (iblk m c 2 t) (iblk m c 3 t) (iblk m c 4 t) (iblk m c 5 t) (ix4 (0 : Fin 1) (0 : Fin 1) p d)
    = GCtx (aQ m c) (aK m c) (aV m c) (aPK m c) (aPV m c) (aM m c) (((cfg0.win 6).blk t).view.emb (ix4 (0 : Fin 1) (0 : Fin 1) p d : S1x1x512x64.Idx))
  have eidx : ((cfg0.win 6).blk t).view.emb (ix4 (0 : Fin 1) (0 : Fin 1) p d : S1x1x512x64.Idx) = ix4 (ptB t) (ptH t) (ptR t p) d := by
    funext a; apply Fin.ext
    obtain ⟨e0, e1, e2, e3⟩ := idx6_eq t
    match a with
    | ⟨0, _⟩ => show win0_6.index t (0 : Fin 4) * 1 + 1 * 0 = win0_7.index t (0 : Fin 4); omega
    | ⟨1, _⟩ => show win0_6.index t (1 : Fin 4) * 1 + 1 * 0 = win0_7.index t (1 : Fin 4); omega
    | ⟨2, _⟩ => show win0_6.index t (2 : Fin 4) * 512 + 1 * p.val = win0_7.index t (2 : Fin 4) * 512 + p.val; omega
    | ⟨3, _⟩ => show win0_6.index t (3 : Fin 4) * 64 + 1 * d.val = d.val; omega
  rw [eidx]
  refine (out6_apply (iblk m c 0 t) (iblk m c 1 t) (iblk m c 2 t) (iblk m c 3 t) (iblk m c 4 t) (iblk m c 5 t) _ _ p
    (pt_pre m c t p) (pt_key m c t p) (kSum_rowScores_ne_zero _ _ _ _ hQ hK hPK hM _ _ _) d).trans ?_
  show _ = gCtx (aQ m c) (aK m c) (aV m c) (aPK m c) (aPV m c) (aM m c) (ptB t) (ptH t) (ptR t p) d
  unfold gCtx rowScores
  refine Finset.sum_congr rfl fun j _ => congrArg₂ (fun a b : EReal => a * b) rfl ?_
  rw [blk4_apply]
  exact congrArg (fun f : Fin 2048 → EReal => join _ f j) (funext fun k => blk2_apply m c t k d)

/-! ## The output blocks tile the arrays -/

theorem mem_blk7 (t : Fin cfg0.N) (i : S4x12x2048x2049.Idx) :
    i ∈ ((cfg0.win 7).blk t).view.set ↔ ∀ a : Fin 4, win0_7.index t a * S1x1x512x2049.size a ≤ (i a).val
      ∧ (i a).val < win0_7.index t a * S1x1x512x2049.size a + S1x1x512x2049.size a := by
  show i ∈ ((View.whole main_v16_1).slice (win0_7.rect t)).set ↔ _
  rw [View.set_slice_whole, Rect.mem_set_unit]
  exact Iff.rfl

theorem mem_blk6 (t : Fin cfg0.N) (i : S4x12x2048x64.Idx) :
    i ∈ ((cfg0.win 6).blk t).view.set ↔ ∀ a : Fin 4, win0_6.index t a * S1x1x512x64.size a ≤ (i a).val
      ∧ (i a).val < win0_6.index t a * S1x1x512x64.size a + S1x1x512x64.size a := by
  show i ∈ ((View.whole main_v16_0).slice (win0_6.rect t)).set ↔ _
  rw [View.set_slice_whole, Rect.mem_set_unit]
  exact Iff.rfl

/-- Every index of the weights array lies in the block of the point of its batch, head and block of 512 query rows. -/
theorem cover7 (i : S4x12x2048x2049.Idx) :
    ∃ t : Fin cfg0.N, (cfg0.win 7).flush t = true ∧ i ∈ ((cfg0.win 7).blk t).view.set := by
  have hi0 : (i 0).val < 4 := (i 0).isLt
  have hi1 : (i 1).val < 12 := (i 1).isLt
  have hi2 : (i 2).val < 2048 := (i 2).isLt
  have hi3 : (i 3).val < 2049 := (i 3).isLt
  obtain ⟨t, ht⟩ := idx_onto7 ⟨(i 0).val, hi0⟩ ⟨(i 1).val, hi1⟩ ⟨(i 2).val / 512, by omega⟩
  have q0 : win0_7.index t (0 : Fin 4) = (i 0).val := congrFun ht 0
  have q1 : win0_7.index t (1 : Fin 4) = (i 1).val := congrFun ht 1
  have q2 : win0_7.index t (2 : Fin 4) = (i 2).val / 512 := congrFun ht 2
  have q3 : win0_7.index t (3 : Fin 4) = 0 := congrFun ht 3
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 1 ≤ (i 1).val ∧ (i 1).val < win0_7.index t (1 : Fin 4) * 1 + 1; omega
  | ⟨2, _⟩ => show win0_7.index t (2 : Fin 4) * 512 ≤ (i 2).val ∧ (i 2).val < win0_7.index t (2 : Fin 4) * 512 + 512; omega
  | ⟨3, _⟩ => show win0_7.index t (3 : Fin 4) * 2049 ≤ (i 3).val ∧ (i 3).val < win0_7.index t (3 : Fin 4) * 2049 + 2049; omega

/-- The same for the context array. -/
theorem cover6 (i : S4x12x2048x64.Idx) :
    ∃ t : Fin cfg0.N, (cfg0.win 6).flush t = true ∧ i ∈ ((cfg0.win 6).blk t).view.set := by
  have hi0 : (i 0).val < 4 := (i 0).isLt
  have hi1 : (i 1).val < 12 := (i 1).isLt
  have hi2 : (i 2).val < 2048 := (i 2).isLt
  have hi3 : (i 3).val < 64 := (i 3).isLt
  obtain ⟨t, ht⟩ := idx_onto7 ⟨(i 0).val, hi0⟩ ⟨(i 1).val, hi1⟩ ⟨(i 2).val / 512, by omega⟩
  have q0 : win0_7.index t (0 : Fin 4) = (i 0).val := congrFun ht 0
  have q1 : win0_7.index t (1 : Fin 4) = (i 1).val := congrFun ht 1
  have q2 : win0_7.index t (2 : Fin 4) = (i 2).val / 512 := congrFun ht 2
  obtain ⟨e0, e1, e2, e3⟩ := idx6_eq t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 512 ≤ (i 2).val ∧ (i 2).val < win0_6.index t (2 : Fin 4) * 512 + 512; omega
  | ⟨3, _⟩ => show win0_6.index t (3 : Fin 4) * 64 ≤ (i 3).val ∧ (i 3).val < win0_6.index t (3 : Fin 4) * 64 + 64; omega

/-! ## The arrays after the run -/

include hQ hK hPK hM in
theorem final7 : (dats m 0 c).arrAt 7 cfg0.N = GW (aQ m c) (aK m c) (aPK m c) (aM m c) :=
  (dats m 0 c).arrAt_eq_of_cover 7 _ (fun t _ => flushed7_eq m c t hQ hK hPK hM) cover7

include hQ hK hPK hM in
theorem final6 : (dats m 0 c).arrAt 6 cfg0.N = GCtx (aQ m c) (aK m c) (aV m c) (aPK m c) (aPV m c) (aM m c) :=
  (dats m 0 c).arrAt_eq_of_cover 6 _ (fun t _ => flushed6_eq m c t hQ hK hPK hM) cover6

end Cert.KernelIdeal.Final

end
-- ==== Proof.RefRows.lean ====
/-
  The reference, one query row at a time.

  The reference joins the prefix key in front of the key rows (and the prefix value in front of the value rows, and a one
  in front of the mask), takes all 2049 scores of a query row by one product, divides them by eight, adds the mask's
  bias, and applies the softmax along the row; the context is one more product. Read at an entry, its scores are the
  specification's row of scores — dividing by eight is multiplying by one eighth on every extended real, and the prefix
  entry's bias `(1 - 1) · β` is zero — so its weights and contexts are the specification's.
-/
import proofs.«164120_j26182120636596_2_alg».proof.Proof.Gen.ReferenceIdeal.Read
import proofs.«164120_j26182120636596_2_alg».proof.Proof.AttnSpec
import proofs.«164120_j26182120636596_2_alg».proof.Proof.LibConcatCols
import Idealize.ShloMosaic.Lib.ValueLayout

noncomputable section

open scoped BigOperators

namespace Cert.ReferenceIdeal.Rows

open Cert.ReferenceIdeal Cert.ReferenceIdeal.Gen Cert.ReferenceIdeal.Read Idealize.ShloMosaic Idealize.ShloMosaic.ValueIdx Cert.PrefixSoftmax Cert.AttnSpec

variable (x0 x1 x2 : (⟨S4x12x2048x64, .f32⟩ : BufTy).Contents (Elt Ideal)) (x3 : (⟨S4x256, .f32⟩ : BufTy).Contents (Elt Ideal))
  (x4 : (⟨S4x2048, .f32⟩ : BufTy).Contents (Elt Ideal)) (x5 : (⟨S256x768, .f32⟩ : BufTy).Contents (Elt Ideal))
  (x6 : (⟨S768, .f32⟩ : BufTy).Contents (Elt Ideal)) (x7 : (⟨S256x768, .f32⟩ : BufTy).Contents (Elt Ideal))
  (x8 : (⟨S768, .f32⟩ : BufTy).Contents (Elt Ideal))

/-- The key rows with the prefix key joined in front, at row `j`. -/
theorem extKeys_apply (pk : (⟨S4x12x1x64, .f32⟩ : BufTy).Contents (Elt Ideal)) (y : (⟨S4x12x2048x64, .f32⟩ : BufTy).Contents (Elt Ideal)) (b : Fin 4) (h : Fin 12) (j : Fin 2049) (d : Fin 64) :
    concatenate S4x12x2049x64 2 [⟨S4x12x1x64, pk⟩, ⟨S4x12x2048x64, y⟩] concatenates_S4x12x1x64_S4x12x2048x64_S4x12x2049x64_d2 (ix4 b h j d)
      = join (pk (ix4 b h 0 d)) (fun k => y (ix4 b h k d)) j := by
  induction j using Fin.cases with
  | zero =>
    exact concatenate_pair_apply_left (t := S4x12x2049x64) (s₁ := S4x12x1x64) (s₂ := S4x12x2048x64) 2 pk y _ (ix4 b h (0 : Fin 2049) d) rfl (ix4 b h (0 : Fin 1) d) (fun a => by
      match a with
      | ⟨0, _⟩ => rfl
      | ⟨1, _⟩ => rfl
      | ⟨2, _⟩ => rfl
      | ⟨3, _⟩ => rfl)
  | succ k =>
    exact concatenate_pair_apply_right (t := S4x12x2049x64) (s₁ := S4x12x1x64) (s₂ := S4x12x2048x64) 2 pk y _ (ix4 b h k.succ d) rfl rfl (ix4 b h k d) (fun a ha => by
      match a with
      | ⟨0, _⟩ => rfl
      | ⟨1, _⟩ => rfl
      | ⟨2, _⟩ => exact absurd rfl ha
      | ⟨3, _⟩ => rfl) (Fin.val_succ k).symm

/-- The mask with a one joined in front, at column `j`. -/
theorem extMask_apply (b : Fin 4) (j : Fin 2049) :
    val_main_v15 (F := Ideal) x4 (ix2 b j) = join cOne (fun k => x4 (ix2 b k)) j := by
  unfold val_main_v15
  induction j using Fin.cases with
  | zero => exact (concatenate_cols_left (val_main_v14 (F := Ideal)) x4 concatenates_S4x1_S4x2048_S4x2049_d1 b 0 (0 : Fin 1) rfl).trans ((val_main_v14_apply (F := Ideal) _).trans rfl)
  | succ k => exact concatenate_cols_right (val_main_v14 (F := Ideal)) x4 concatenates_S4x1_S4x2048_S4x2049_d1 b k.succ k (Fin.val_succ k).symm

/-- A query row's scores are the specification's. -/
theorem score_apply (b : Fin 4) (h : Fin 12) (r : Fin 2048) (j : Fin 2049) :
    val_main_v25 (F := Ideal) x0 x1 x3 x4 x5 x6 (ix4 b h r j) = rowScores x0 x1 (val_main_v5 (F := Ideal) x3 x5 x6) x4 b h r j := by
  rw [val_main_v25_apply, val_main_v18_apply, val_main_v16_apply, val_main_v17_apply, val_main_cst_0_apply, val_main_v24_apply,
    val_main_v23_apply, val_main_v21_apply, val_main_v20_apply, val_main_v19_apply, val_main_cst_1_apply, val_main_v22_apply,
    val_main_cst_2_apply]
  have e1 : idx_main_v21 (idx_main_v24 (ix4 b h r j)) = ix2 b j :=
    funext fun a => Fin.ext (by match a with | ⟨0, _⟩ => rfl | ⟨1, _⟩ => rfl)
  have el : ∀ d : Fin 64, lidx_main_v16 (ix4 b h r j) d = ix4 b h r d := fun d =>
    funext fun a => Fin.ext (by match a with | ⟨0, _⟩ => rfl | ⟨1, _⟩ => rfl | ⟨2, _⟩ => rfl | ⟨3, _⟩ => rfl)
  have er : ∀ d : Fin 64, ridx_main_v16 (ix4 b h r j) d = ix4 b h j d := fun d =>
    funext fun a => Fin.ext (by match a with | ⟨0, _⟩ => rfl | ⟨1, _⟩ => rfl | ⟨2, _⟩ => rfl | ⟨3, _⟩ => rfl)
  rw [e1, extMask_apply]
  simp only [el, er]
  unfold val_main_v12
  simp only [extKeys_apply (val_main_v5 (F := Ideal) x3 x5 x6) x1]
  show Ideal.div (∑ d : Fin 64, x0 (ix4 b h r d) * join (val_main_v5 (F := Ideal) x3 x5 x6 (ix4 b h 0 d)) (fun k => x1 (ix4 b h k d)) j) cEight
      + (cOne - join cOne (fun k => x4 (ix2 b k)) j) * cBias = _
  rw [div_eight]
  unfold rowScores
  induction j using Fin.cases with
  | zero =>
    simp only [join_zero]
    unfold preScore
    rw [cOne_eq, ← EReal.coe_sub, sub_self, EReal.coe_zero, zero_mul, add_zero]
  | succ k =>
    simp only [join_succ]
    rfl

local notation "PK" => val_main_v5 (F := Ideal) x3 x5 x6
local notation "PV" => val_main_v11 (F := Ideal) x3 x7 x8

/-- A query row's largest score. -/
theorem top_apply (b : Fin 4) (h : Fin 12) (r : Fin 2048) :
    val_main_v28 (F := Ideal) x0 x1 x3 x4 x5 x6 (ix3 b h r) = top (rowScores x0 x1 PK x4 b h r) := by
  rw [val_main_v28_apply, val_main_v27_apply, val_main_cst_4_apply]
  unfold val_main_v26
  have hR : S4x12x2048x2049.Reduces [3] S4x12x2048 := by decide
  rw [Host.reduce_eq_fold_single FloatOps.maximumf _ _ reducesTo_S4x12x2048x2049_S4x12x2048_d3 hR h_S_ (ix3 b h r)]
  have hf : (val_main_v25 (F := Ideal) x0 x1 x3 x4 x5 x6 ∘ hR.lift (ix3 b h r)) = rowScores x0 x1 PK x4 b h r :=
    funext fun j => (congrArg (val_main_v25 (F := Ideal) x0 x1 x3 x4 x5 x6)
      (funext fun a => Fin.ext (by match a with | ⟨0, _⟩ => rfl | ⟨1, _⟩ => rfl | ⟨2, _⟩ => rfl | ⟨3, _⟩ => rfl))).trans
      (score_apply x0 x1 x3 x4 x5 x6 b h r j)
  rw [hf]
  show max (Ideal.ofBits .f32 0xFF800000#32) (Finset.fold max (Ideal.ofBits .f32 0xFF800000#32) (rowScores x0 x1 PK x4 b h r) Finset.univ) = _
  rw [ofBits_neg_inf, max_bot_left]
  rfl

/-- The exponential of a score's distance to its row's largest. -/
theorem exp_apply (b : Fin 4) (h : Fin 12) (r : Fin 2048) (j : Fin 2049) :
    val_main_v32 (F := Ideal) x0 x1 x3 x4 x5 x6 (ix4 b h r j)
      = Ideal.exp (rowScores x0 x1 PK x4 b h r j - top (rowScores x0 x1 PK x4 b h r)) := by
  rw [val_main_v32_apply, val_main_v31_apply, val_main_v30_apply, val_main_v29_apply, score_apply]
  have e : idx_main_v29 (idx_main_v30 (ix4 b h r j)) = ix3 b h r :=
    funext fun a => Fin.ext (by match a with | ⟨0, _⟩ => rfl | ⟨1, _⟩ => rfl | ⟨2, _⟩ => rfl)
  rw [e, top_apply]
  rfl

/-- The reference's weights are the specification's. -/
theorem weight_apply (b : Fin 4) (h : Fin 12) (r : Fin 2048) (j : Fin 2049) :
    val_main_v36 (F := Ideal) x0 x1 x3 x4 x5 x6 (ix4 b h r j) = gW x0 x1 PK x4 b h r j := by
  rw [val_main_v36_apply, val_main_v35_apply, val_main_v34_apply, exp_apply]
  have e : idx_main_v34 (idx_main_v35 (ix4 b h r j)) = ix3 b h r :=
    funext fun a => Fin.ext (by match a with | ⟨0, _⟩ => rfl | ⟨1, _⟩ => rfl | ⟨2, _⟩ => rfl)
  rw [e, val_main_v33_apply, val_main_cst_5_apply]
  have es : ∀ k : Fin 2049, idx_main_v33 (ix3 b h r) k = ix4 b h r k := fun k =>
    funext fun a => Fin.ext (by match a with | ⟨0, _⟩ => rfl | ⟨1, _⟩ => rfl | ⟨2, _⟩ => rfl | ⟨3, _⟩ => rfl)
  simp only [es, exp_apply]
  show Ideal.div _ (Ideal.ofBits .f32 0x00000000#32 + _) = _
  rw [Ideal.ofBits_zero_f32, zero_add]
  rfl

/-- The reference's contexts are the specification's. -/
theorem ctx_apply (b : Fin 4) (h : Fin 12) (r : Fin 2048) (d : Fin 64) :
    val_main_v37 (F := Ideal) x0 x1 x2 x3 x4 x5 x6 x7 x8 (ix4 b h r d) = gCtx x0 x1 x2 PK PV x4 b h r d := by
  rw [val_main_v37_apply]
  have el : ∀ k : Fin 2049, lidx_main_v37 (ix4 b h r d) k = ix4 b h r k := fun k =>
    funext fun a => Fin.ext (by match a with | ⟨0, _⟩ => rfl | ⟨1, _⟩ => rfl | ⟨2, _⟩ => rfl | ⟨3, _⟩ => rfl)
  have er : ∀ k : Fin 2049, ridx_main_v37 (ix4 b h r d) k = ix4 b h k d := fun k =>
    funext fun a => Fin.ext (by match a with | ⟨0, _⟩ => rfl | ⟨1, _⟩ => rfl | ⟨2, _⟩ => rfl | ⟨3, _⟩ => rfl)
  simp only [el, er, weight_apply]
  unfold val_main_v13
  simp only [extKeys_apply (val_main_v11 (F := Ideal) x3 x7 x8) x2]
  rfl

/-- With a real graph summary, projection weights and bias, the prefix key has real entries. -/
theorem prefixKey_real (h3 : ∀ i, ∃ r : ℝ, x3 i = (r : EReal)) (h5 : ∀ i, ∃ r : ℝ, x5 i = (r : EReal))
    (h6 : ∀ i, ∃ r : ℝ, x6 i = (r : EReal)) (i : S4x12x1x64.Idx) :
    ∃ r : ℝ, val_main_v5 (F := Ideal) x3 x5 x6 i = (r : EReal) := by
  rw [val_main_v5_apply, val_main_v4_apply, val_main_v3_apply, val_main_v0_apply, val_main_v2_apply, val_main_v1_apply,
    Ideal.addf_def]
  exact real_add (real_dot _ _ (fun k => h3 _) (fun k => h5 _)) (h6 _)

/-- As whole arrays. -/
theorem weights_eq : val_main_v36 (F := Ideal) x0 x1 x3 x4 x5 x6 = GW x0 x1 PK x4 := funext fun i => by
  obtain ⟨b, h, r, j, rfl⟩ : ∃ (b : Fin 4) (h : Fin 12) (r : Fin 2048) (j : Fin 2049), i = ix4 b h r j := ⟨i 0, i 1, i 2, i 3, eq_ix4 i⟩
  exact weight_apply x0 x1 x3 x4 x5 x6 b h r j

theorem ctx_eq : val_main_v37 (F := Ideal) x0 x1 x2 x3 x4 x5 x6 x7 x8 = GCtx x0 x1 x2 PK PV x4 := funext fun i => by
  obtain ⟨b, h, r, d, rfl⟩ : ∃ (b : Fin 4) (h : Fin 12) (r : Fin 2048) (d : Fin 64), i = ix4 b h r d := ⟨i 0, i 1, i 2, i 3, eq_ix4 i⟩
  exact ctx_apply x0 x1 x2 x3 x4 x5 x6 x7 x8 b h r d

end Cert.ReferenceIdeal.Rows

end
-- ==== Proof.KernelArrays.lean ====
/-
  The arrays the kernel's region finds, as functions of the arguments.

  Before the region the host casts the queries, keys and values to a narrower float format (the identity on extended reals),
  recasts the mask from `[4, 2048]` to `[4, 1, 2048]`, and projects the graph summary to one prefix key and one prefix
  value per head by the same operations, in the same order, as the reference.
-/
import proofs.«164120_j26182120636596_2_alg».proof.Proof.KernelFinal
import proofs.«164120_j26182120636596_2_alg».proof.Proof.Gen.ReferenceIdeal.Read
import proofs.«164120_j26182120636596_2_alg».proof.Proof.RefRows
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo Cert.AttnSpec Cert.KernelIdeal.Final

variable (m : (ℓ : Loc nD τ sig) → Buf (Elt Ideal) ℓ) (c : Dev nD)

theorem aQ_eq : aQ m c = (m ((c : Thread nD τ).loc main_arg0) : S4x12x2048x64.Idx → EReal) := by
  show (V m c main_v13 : S4x12x2048x64.Idx → EReal) = _
  dsimp only [Gen.V, Gen.hostOps0]
  after_results
  rfl

theorem aK_eq : aK m c = (m ((c : Thread nD τ).loc main_arg1) : S4x12x2048x64.Idx → EReal) := by
  show (V m c main_v14 : S4x12x2048x64.Idx → EReal) = _
  dsimp only [Gen.V, Gen.hostOps0]
  after_results
  rfl

theorem aV_eq : aV m c = (m ((c : Thread nD τ).loc main_arg2) : S4x12x2048x64.Idx → EReal) := by
  show (V m c main_v15 : S4x12x2048x64.Idx → EReal) = _
  dsimp only [Gen.V, Gen.hostOps0]
  after_results
  rfl

theorem aPK_eq : aPK m c = Cert.ReferenceIdeal.Read.val_main_v5 (F := Ideal) (m ((c : Thread nD τ).loc main_arg3))
    (m ((c : Thread nD τ).loc main_arg5)) (m ((c : Thread nD τ).loc main_arg6)) := by
  show (V m c main_v5 : S4x12x1x64.Idx → EReal) = _
  dsimp only [Gen.V, Gen.hostOps0]
  after_results
  rfl

theorem aPV_eq : aPV m c = Cert.ReferenceIdeal.Read.val_main_v11 (F := Ideal) (m ((c : Thread nD τ).loc main_arg3))
    (m ((c : Thread nD τ).loc main_arg7)) (m ((c : Thread nD τ).loc main_arg8)) := by
  show (V m c main_v11 : S4x12x1x64.Idx → EReal) = _
  dsimp only [Gen.V, Gen.hostOps0]
  after_results
  rfl

theorem aM_eq : aM m c = (m ((c : Thread nD τ).loc main_arg4) : S4x2048.Idx → EReal) := by
  have e : (V m c main_v12 : S4x1x2048.Idx → EReal)
      = shapeCast S4x1x2048 (m ((c : Thread nD τ).loc main_arg4) : S4x2048.Idx → EReal) shapeCasts_S4x2048_S4x1x2048 := by
    dsimp only [Gen.V, Gen.hostOps0]
    after_results
    rfl
  funext i
  obtain ⟨b, k, rfl⟩ : ∃ (b : Fin 4) (k : Fin 2048), i = ix2 b k := ⟨i 0, i 1, eq_ix2 i⟩
  show (V m c main_v12 : S4x1x2048.Idx → EReal) (ix3 b (0 : Fin 1) k) = _
  rw [e]
  exact shapeCast_apply _ _ _ _ (by
    show ((⟨2, ![4, 2048]⟩ : Shape).rowMajor (ix2 b k)).val = ((⟨3, ![4, 1, 2048]⟩ : Shape).rowMajor (ix3 b (0 : Fin 1) k)).val
    rw [Shape.rowMajor_val_two, Shape.rowMajor_val_three]
    show b.val * 2048 + k.val = (b.val * 1 + 0) * 2048 + k.val
    omega)

/-! ## The two output arrays after the run, as functions of the arguments -/

section Values

variable (h0 : ∀ i, ∃ r : ℝ, (m ((c : Thread nD τ).loc main_arg0) : S4x12x2048x64.Idx → EReal) i = (r : EReal))
  (h1 : ∀ i, ∃ r : ℝ, (m ((c : Thread nD τ).loc main_arg1) : S4x12x2048x64.Idx → EReal) i = (r : EReal))
  (h3 : ∀ i, ∃ r : ℝ, (m ((c : Thread nD τ).loc main_arg3) : S4x256.Idx → EReal) i = (r : EReal))
  (h4 : ∀ i, ∃ r : ℝ, (m ((c : Thread nD τ).loc main_arg4) : S4x2048.Idx → EReal) i = (r : EReal))
  (h5 : ∀ i, ∃ r : ℝ, (m ((c : Thread nD τ).loc main_arg5) : S256x768.Idx → EReal) i = (r : EReal))
  (h6 : ∀ i, ∃ r : ℝ, (m ((c : Thread nD τ).loc main_arg6) : S768.Idx → EReal) i = (r : EReal))

include h0 in
theorem aQ_real : ∀ i, ∃ r : ℝ, aQ m c i = (r : EReal) := by rw [aQ_eq]; exact h0
include h1 in
theorem aK_real : ∀ i, ∃ r : ℝ, aK m c i = (r : EReal) := by rw [aK_eq]; exact h1
include h4 in
theorem aM_real : ∀ i, ∃ r : ℝ, aM m c i = (r : EReal) := by rw [aM_eq]; exact h4
include h3 h5 h6 in
theorem aPK_real : ∀ i, ∃ r : ℝ, aPK m c i = (r : EReal) := by
  rw [aPK_eq]; exact Cert.ReferenceIdeal.Rows.prefixKey_real _ _ _ h3 h5 h6

include h0 h1 h3 h4 h5 h6 in
/-- After the run the weights array is the specification's weights of the arguments. -/
theorem weights_final : (dats m 0 c).arrAt 7 cfg0.N
    = GW (m ((c : Thread nD τ).loc main_arg0)) (m ((c : Thread nD τ).loc main_arg1))
        (Cert.ReferenceIdeal.Read.val_main_v5 (F := Ideal) (m ((c : Thread nD τ).loc main_arg3))
          (m ((c : Thread nD τ).loc main_arg5)) (m ((c : Thread nD τ).loc main_arg6)))
        (m ((c : Thread nD τ).loc main_arg4)) := by
  rw [final7 m c (aQ_real m c h0) (aK_real m c h1) (aPK_real m c h3 h5 h6) (aM_real m c h4), aQ_eq, aK_eq, aPK_eq, aM_eq]

include h0 h1 h3 h4 h5 h6 in
/-- After the run the context array is the specification's contexts of the arguments. -/
theorem ctx_final : (dats m 0 c).arrAt 6 cfg0.N
    = GCtx (m ((c : Thread nD τ).loc main_arg0)) (m ((c : Thread nD τ).loc main_arg1)) (m ((c : Thread nD τ).loc main_arg2))
        (Cert.ReferenceIdeal.Read.val_main_v5 (F := Ideal) (m ((c : Thread nD τ).loc main_arg3))
          (m ((c : Thread nD τ).loc main_arg5)) (m ((c : Thread nD τ).loc main_arg6)))
        (Cert.ReferenceIdeal.Read.val_main_v11 (F := Ideal) (m ((c : Thread nD τ).loc main_arg3))
          (m ((c : Thread nD τ).loc main_arg7)) (m ((c : Thread nD τ).loc main_arg8)))
        (m ((c : Thread nD τ).loc main_arg4)) := by
  rw [final6 m c (aQ_real m c h0) (aK_real m c h1) (aPK_real m c h3 h5 h6) (aM_real m c h4), aQ_eq, aK_eq, aV_eq, aPK_eq, aPV_eq,
    aM_eq]

end Values

end Cert.KernelIdeal.Arrays

end
-- ==== Proof.PreReal.lean ====
/-
  What the precondition says of the inputs: every entry of a float input is a real number.

  The precondition compares the absolute value of every entry with `+∞` and takes the conjunction over each input and
  then over the inputs. Read back: the conjunction is one exactly when every comparison is one, `|x| < ⊤` on the extended
  reals rules out both infinities, and what is left of the extended reals is the reals.
-/
import proofs.«164120_j26182120636596_2_alg».proof.Pre_finite_inputs
import proofs.«164120_j26182120636596_2_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Reals

open Cert.Pre_finite_inputs Idealize.ShloMosaic

instance : Subsingleton S_.Idx := ⟨fun a b => funext fun d => d.elim0⟩

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => exact absurd hlt (by simp)
  | coe r => exact ⟨r, rfl⟩
  | top => exact absurd hlt (by simp)

variable [hF : Cert.Pre_finite_inputs.Facts]

/-- Under the precondition the queries, the keys, the graph summary, the mask, and the key projection's weights and bias
    hold real numbers. -/
theorem reals_of_fn (a0 a1 a2 : FVec Ideal S4x12x2048x64 .f32) (a3 : FVec Ideal S4x256 .f32) (a4 : FVec Ideal S4x2048 .f32)
    (a5 : FVec Ideal S256x768 .f32) (a6 : FVec Ideal S768 .f32) (a7 : FVec Ideal S256x768 .f32) (a8 : FVec Ideal S768 .f32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have h0 := congrFun h ValueIdx.ix0
  dsimp only [fn, fn_part1, fn_part2] at h0
  obtain ⟨h38, h8⟩ := IntOp.andi_eq_one.1 h0
  obtain ⟨h33, h7⟩ := IntOp.andi_eq_one.1 h38
  obtain ⟨h28, h6⟩ := IntOp.andi_eq_one.1 h33
  obtain ⟨h23, h5⟩ := IntOp.andi_eq_one.1 h28
  obtain ⟨h18, h4⟩ := IntOp.andi_eq_one.1 h23
  obtain ⟨h13, h3⟩ := IntOp.andi_eq_one.1 h18
  obtain ⟨h08, h2⟩ := IntOp.andi_eq_one.1 h13
  obtain ⟨h00, h1⟩ := IntOp.andi_eq_one.1 h08
  exact ⟨fun i => real_of_abs_lt _ (Host.reduce_andi_all _ _ _ _ _ h00 i),
    fun i => real_of_abs_lt _ (Host.reduce_andi_all _ _ _ _ _ h1 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i),
    fun i => real_of_abs_lt _ (Host.reduce_andi_all _ _ _ _ _ h6 i)⟩

end Cert.Pre_finite_inputs.Reals

end
-- ==== Proof.lean ====
/-
  The proof of `Cert.Claim`: attention over 2048 keys and one prefix key per head, tiled 512 query rows at a time, against
  the whole-array reference.

  Both programs project the graph summary to a prefix key and a prefix value per head by the same host operations. The
  kernel then scores a block of query rows against the keys and, apart, against the prefix key; takes the softmax with
  the prefix entry first, multiplying by the reciprocal of the normaliser; and adds the prefix value's share to the
  weighted sum of the value rows. The reference joins the prefix in front of the keys, values and mask and does the
  same by whole-array operations, dividing by eight where the kernel multiplies by one eighth and dividing by the
  normaliser. On the extended reals the two agree entry by entry (the prefix-softmax module's row laws); the one law that
  needs real numbers is `e · (1 / l) = e / l`, which needs `l ≠ 0`, and the precondition makes every score real.

  The three frames are the generated ones (the reference's is its generated run with the results dropped); the
  idealization rewrote nothing, so `preserves` is trivial.
-/
import proofs.«164120_j26182120636596_2_alg».proof.Defs
import proofs.«164120_j26182120636596_2_alg».proof.Proof.Gen.Kernel
import proofs.«164120_j26182120636596_2_alg».proof.Proof.Gen.Kernel.Skeleton
import proofs.«164120_j26182120636596_2_alg».proof.Proof.Gen.Kernel.Launch
import proofs.«164120_j26182120636596_2_alg».proof.Proof.Gen.Kernel.Points
import proofs.«164120_j26182120636596_2_alg».proof.Proof.Gen.Kernel.Frame
import proofs.«164120_j26182120636596_2_alg».proof.Proof.Gen.KernelIdeal
import proofs.«164120_j26182120636596_2_alg».proof.Proof.Gen.KernelIdeal.Skeleton
import proofs.«164120_j26182120636596_2_alg».proof.Proof.Gen.KernelIdeal.Launch
import proofs.«164120_j26182120636596_2_alg».proof.Proof.Gen.KernelIdeal.Points
import proofs.«164120_j26182120636596_2_alg».proof.Proof.Gen.KernelIdeal.Frame
import proofs.«164120_j26182120636596_2_alg».proof.Proof.Gen.ReferenceIdeal
import proofs.«164120_j26182120636596_2_alg».proof.Proof.Gen.Pre_finite_inputs
import proofs.«164120_j26182120636596_2_alg».proof.Proof.Gen.KernelIdeal.Value
import proofs.«164120_j26182120636596_2_alg».proof.Proof.Gen.ReferenceIdeal.Run
import proofs.«164120_j26182120636596_2_alg».proof.Proof.Gen.ReferenceIdeal.Read
import proofs.«164120_j26182120636596_2_alg».proof.Proof.KernelArrays
import proofs.«164120_j26182120636596_2_alg».proof.Proof.RefRows
import proofs.«164120_j26182120636596_2_alg».proof.Proof.PreReal
import Idealize.ShloMosaic.Adequacy
import Idealize.ShloMosaic.Init

noncomputable section

namespace Cert.Proof

open Idealize.ShloMosaic Idealize.ShloMosaic.TcCoe Idealize.SL.Sem Cert.AttnSpec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both runs end with the specification's contexts and weights of the (agreeing) arguments. -/
theorem algebraic : Cert.algebraic_KernelIdeal_ReferenceIdeal := by
  intro m ρ m' ρ' hpre hagree
  have hreal := fun c => Cert.Pre_finite_inputs.Reals.reals_of_fn _ _ _ _ _ _ _ _ _ (hpre c)
  refine ⟨fun c => GCtx (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.ReferenceIdeal.Read.val_main_v5 (F := Ideal) (m ((c.tc : Thread Cert.KernelIdeal.nD Cert.KernelIdeal.τ).loc Cert.KernelIdeal.main_arg3))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
      (Cert.ReferenceIdeal.Read.val_main_v11 (F := Ideal) (m ((c.tc : Thread Cert.KernelIdeal.nD Cert.KernelIdeal.τ).loc Cert.KernelIdeal.main_arg3))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)))
      (m ((c.tc : Thread Cert.KernelIdeal.nD Cert.KernelIdeal.τ).loc Cert.KernelIdeal.main_arg4)),
    fun c => GW (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.ReferenceIdeal.Read.val_main_v5 (F := Ideal) (m ((c.tc : Thread Cert.KernelIdeal.nD Cert.KernelIdeal.τ).loc Cert.KernelIdeal.main_arg3))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2.1.trans ?_, (h c).2.2⟩)
      (Cert.KernelIdeal.Value.run_blocks m ρ)
    · exact Cert.KernelIdeal.Arrays.ctx_final m c (hreal c).1 (hreal c).2.1 (hreal c).2.2.1 (hreal c).2.2.2.1 (hreal c).2.2.2.2.1
        (hreal c).2.2.2.2.2
    · exact Cert.KernelIdeal.Arrays.weights_final m c (hreal c).1 (hreal c).2.1 (hreal c).2.2.1 (hreal c).2.2.2.1 (hreal c).2.2.2.2.1
        (hreal c).2.2.2.2.2
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v37_eq, Cert.ReferenceIdeal.Rows.ctx_eq, (hagree c).1, (hagree c).2.1, (hagree c).2.2.1,
        (hagree c).2.2.2.1, (hagree c).2.2.2.2.1, (hagree c).2.2.2.2.2.1, (hagree c).2.2.2.2.2.2.1, (hagree c).2.2.2.2.2.2.2.1,
        (hagree c).2.2.2.2.2.2.2.2]
    · rw [Cert.ReferenceIdeal.Read.val_main_v36_eq, Cert.ReferenceIdeal.Rows.weights_eq, (hagree c).1, (hagree c).2.1,
        (hagree c).2.2.2.1, (hagree c).2.2.2.2.1, (hagree c).2.2.2.2.2.1, (hagree c).2.2.2.2.2.2.1]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
